-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1x256x4 : Shape := ⟨3, ![1, 256, 4]⟩
abbrev S256x1024 : Shape := ⟨2, ![256, 1024]⟩
abbrev S256 : Shape := ⟨1, ![256]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1x256x4 : S_.BroadcastsInDim S1x256x4 (![] : Fin 0 → Fin S1x256x4.rank)
  reducesTo_S1x256x4_S_d0_1_2 : S1x256x4.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S65536x1024 .f32) (main_arg1 : FVec F S1x256x4 .f32) (main_arg2 : FVec F S256x1024 .f32) (main_arg3 : FVec F S256 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1x256x4 .f32 := Host.absf main_arg1
  let main_cst_0 : FVec F S_ .f32 := constant S_ .f32 0x7F800000#32
  let main_v5 : FVec F S1x256x4 .f32 := broadcastInDim S1x256x4 ![] bcast_S_S1x256x4 main_cst_0
  let main_v6 : IVec S1x256x4 1 := cmpf .olt main_v4 main_v5
  let main_c_1 : IVec S_ 1 := constantI S_ 1 1#1
  let main_v7 : IVec S_ 1 := (fun x v => Host.reduce IntOp.andi x v reducesTo_S1x256x4_S_d0_1_2 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S65536x1024 : Shape := ⟨2, ![65536, 1024]⟩
abbrev S1x256x4 : Shape := ⟨3, ![1, 256, 4]⟩
abbrev S256x1024 : Shape := ⟨2, ![256, 1024]⟩
abbrev S256 : Shape := ⟨1, ![256]⟩
abbrev S1x256x1 : Shape := ⟨3, ![1, 256, 1]⟩
abbrev S256x256x4 : Shape := ⟨3, ![256, 256, 4]⟩
abbrev S256x256x1 : Shape := ⟨3, ![256, 256, 1]⟩
abbrev S256x256 : Shape := ⟨2, ![256, 256]⟩
abbrev S1x256 : Shape := ⟨2, ![1, 256]⟩
abbrev S1024x256 : Shape := ⟨2, ![1024, 256]⟩
abbrev S65536x256 : Shape := ⟨2, ![65536, 256]⟩
abbrev S2048x1024 : Shape := ⟨2, ![2048, 1024]⟩
abbrev S2048x256 : Shape := ⟨2, ![2048, 256]⟩

abbrev nBuf : Space → Nat
  | .hbm => 95
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1x256x4, .f32⟩
  | .hbm, ⟨2, _⟩ => ⟨S256x1024, .f32⟩
  | .hbm, ⟨3, _⟩ => ⟨S256, .f32⟩
  | .hbm, ⟨4, _⟩ => ⟨S1x256x4, .f32⟩
  | .hbm, ⟨5, _⟩ => ⟨S1x256x1, .f32⟩
  | .hbm, ⟨6, _⟩ => ⟨S256, .f32⟩
  | .hbm, ⟨7, _⟩ => ⟨S1x256x1, .f32⟩
  | .hbm, ⟨8, _⟩ => ⟨S256, .f32⟩
  | .hbm, ⟨9, _⟩ => ⟨S1x256x1, .f32⟩
  | .hbm, ⟨10, _⟩ => ⟨S256, .f32⟩
  | .hbm, ⟨11, _⟩ => ⟨S1x256x1, .f32⟩
  | .hbm, ⟨12, _⟩ => ⟨S256, .f32⟩
  | .hbm, ⟨13, _⟩ => ⟨S256x256x4, .f32⟩
  | .hbm, ⟨14, _⟩ => ⟨S256x256x1, .f32⟩
  | .hbm, ⟨15, _⟩ => ⟨S256x256, .f32⟩
  | .hbm, ⟨16, _⟩ => ⟨S256x256x1, .f32⟩
  | .hbm, ⟨17, _⟩ => ⟨S256x256, .f32⟩
  | .hbm, ⟨18, _⟩ => ⟨S256x256x1, .f32⟩
  | .hbm, ⟨19, _⟩ => ⟨S256x256, .f32⟩
  | .hbm, ⟨20, _⟩ => ⟨S256x256x1, .f32⟩
  | .hbm, ⟨21, _⟩ => ⟨S256x256, .f32⟩
  | .hbm, ⟨22, _⟩ => ⟨S1x256, .f32⟩
  | .hbm, ⟨23, _⟩ => ⟨S256x256, .f32⟩
  | .hbm, ⟨24, _⟩ => ⟨S256x256, .f32⟩
  | .hbm, ⟨25, _⟩ => ⟨S1x256, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S1x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S1x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S1x256, .f32⟩
  | .hbm, ⟨39, _⟩ => ⟨S256x256, .f32⟩
  | .hbm, ⟨40, _⟩ => ⟨S256x256, .f32⟩
  | .hbm, ⟨41, _⟩ => ⟨S1x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S1x256, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S1x256, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S1x256, .f32⟩
  | .hbm, ⟨55, _⟩ => ⟨S256x256, .f32⟩
  | .hbm, ⟨56, _⟩ => ⟨S256x256, .f32⟩
  | .hbm, ⟨57, _⟩ => ⟨S1x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S1x256, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S1x256, .f32⟩
  | .hbm, ⟨66, _⟩ => ⟨S256x256, .f32⟩
  | .hbm, ⟨67, _⟩ => ⟨S256x256, .f32⟩
  | .hbm, ⟨68, _⟩ => ⟨S256x256, .f32⟩
  | .hbm, ⟨69, _⟩ => ⟨S256x256, .f32⟩
  | .hbm, ⟨70, _⟩ => ⟨S1x256, .f32⟩
  | .hbm, ⟨71, _⟩ => ⟨S256x256, .f32⟩
  | .hbm, ⟨72, _⟩ => ⟨S256x256, .f32⟩
  | .hbm, ⟨73, _⟩ => ⟨S1x256, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S1x256, .f32⟩
  | .hbm, ⟨78, _⟩ => ⟨S256x256, .f32⟩
  | .hbm, ⟨79, _⟩ => ⟨S256x256, .f32⟩
  | .hbm, ⟨80, _⟩ => ⟨S256x256, .f32⟩
  | .hbm, ⟨81, _⟩ => ⟨S1x256, .f32⟩
  | .hbm, ⟨82, _⟩ => ⟨S256x256, .f32⟩
  | .hbm, ⟨83, _⟩ => ⟨S256x256, .f32⟩
  | .hbm, ⟨84, _⟩ => ⟨S256x256, .f32⟩
  | .hbm, ⟨85, _⟩ => ⟨S256x256x1, .f32⟩
  | .hbm, ⟨86, _⟩ => ⟨S256x256x1, .f32⟩
  | .hbm, ⟨87, _⟩ => ⟨S256x256x1, .f32⟩
  | .hbm, ⟨88, _⟩ => ⟨S256x256x1, .f32⟩
  | .hbm, ⟨89, _⟩ => ⟨S256x256x4, .f32⟩
  | .hbm, ⟨90, _⟩ => ⟨S256x1024, .f32⟩
  | .hbm, ⟨91, _⟩ => ⟨S1024x256, .f32⟩
  | .hbm, ⟨92, _⟩ => ⟨S1024x256, .bf16⟩
  | .hbm, ⟨93, _⟩ => ⟨S1x256, .f32⟩
  | .hbm, ⟨94, _⟩ => ⟨S65536x256, .f32⟩
  | .local _ .vmem, ⟨0, _⟩ => ⟨S2048x1024, .f32⟩
  | .local _ .vmem, ⟨1, _⟩ => ⟨S2048x1024, .f32⟩
  | .local _ .vmem, ⟨2, _⟩ => ⟨S1024x256, .bf16⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1x256x4_S1x256x1_0_0_0 : S1x256x4.Slices ![0, 0, 0] S1x256x1
  shapeCasts_S1x256x1_S256 : S1x256x1.ShapeCasts S256
  slices_S1x256x4_S1x256x1_0_0_1 : S1x256x4.Slices ![0, 0, 1] S1x256x1
  slices_S1x256x4_S1x256x1_0_0_2 : S1x256x4.Slices ![0, 0, 2] S1x256x1
  slices_S1x256x4_S1x256x1_0_0_3 : S1x256x4.Slices ![0, 0, 3] S1x256x1
  shapeCasts_S256x1024_S256x256x4 : S256x1024.ShapeCasts S256x256x4
  slices_S256x256x4_S256x256x1_0_0_0 : S256x256x4.Slices ![0, 0, 0] S256x256x1
  shapeCasts_S256x256x1_S256x256 : S256x256x1.ShapeCasts S256x256
  slices_S256x256x4_S256x256x1_0_0_1 : S256x256x4.Slices ![0, 0, 1] S256x256x1
  slices_S256x256x4_S256x256x1_0_0_2 : S256x256x4.Slices ![0, 0, 2] S256x256x1
  slices_S256x256x4_S256x256x1_0_0_3 : S256x256x4.Slices ![0, 0, 3] S256x256x1
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S256x256_S256x256x1_0_1 : S256x256.BroadcastsInDim S256x256x1 (![0, 1] : Fin 2 → Fin S256x256x1.rank)
  concatenates_S256x256x1_S256x256x1_S256x256x1_S256x256x1_S256x256x4_d2 : Shape.Concatenates [S256x256x1, S256x256x1, S256x256x1, S256x256x1] S256x256x4 2
  shapeCasts_S256x256x4_S256x1024 : S256x256x4.ShapeCasts S256x1024
  transposes_S256x1024_S1024x256_1_0 : S256x1024.Transposes [1, 0] S1024x256
  bitsLt_bf16_f32 : FTy.bits .bf16 < FTy.bits .f32
  shapeCasts_S256_S1x256 : S256.ShapeCasts S1x256
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v88) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v89) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v90) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1x256x4 : Shape := ⟨3, ![1, 256, 4]⟩
abbrev S256x1024 : Shape := ⟨2, ![256, 1024]⟩
abbrev S256 : Shape := ⟨1, ![256]⟩
abbrev S65536x256x4 : Shape := ⟨3, ![65536, 256, 4]⟩
abbrev S1x256x1 : Shape := ⟨3, ![1, 256, 1]⟩
abbrev S1x256 : Shape := ⟨2, ![1, 256]⟩
abbrev S65536x256x1 : Shape := ⟨3, ![65536, 256, 1]⟩
abbrev S65536x256 : Shape := ⟨2, ![65536, 256]⟩
abbrev S1024x256 : Shape := ⟨2, ![1024, 256]⟩

abbrev nBuf : Space → Nat
  | .hbm => 77
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x256x4, .f32⟩
  | .hbm, ⟨2, _⟩ => ⟨S256x1024, .f32⟩
  | .hbm, ⟨3, _⟩ => ⟨S256, .f32⟩
  | .hbm, ⟨4, _⟩ => ⟨S1x256x4, .f32⟩
  | .hbm, ⟨5, _⟩ => ⟨S65536x256x4, .f32⟩
  | .hbm, ⟨6, _⟩ => ⟨S1x256x1, .f32⟩
  | .hbm, ⟨7, _⟩ => ⟨S1x256, .f32⟩
  | .hbm, ⟨8, _⟩ => ⟨S1x256x1, .f32⟩
  | .hbm, ⟨9, _⟩ => ⟨S1x256, .f32⟩
  | .hbm, ⟨10, _⟩ => ⟨S1x256x1, .f32⟩
  | .hbm, ⟨11, _⟩ => ⟨S1x256, .f32⟩
  | .hbm, ⟨12, _⟩ => ⟨S1x256x1, .f32⟩
  | .hbm, ⟨13, _⟩ => ⟨S1x256, .f32⟩
  | .hbm, ⟨14, _⟩ => ⟨S65536x256x1, .f32⟩
  | .hbm, ⟨15, _⟩ => ⟨S65536x256, .f32⟩
  | .hbm, ⟨16, _⟩ => ⟨S65536x256x1, .f32⟩
  | .hbm, ⟨17, _⟩ => ⟨S65536x256, .f32⟩
  | .hbm, ⟨18, _⟩ => ⟨S65536x256x1, .f32⟩
  | .hbm, ⟨19, _⟩ => ⟨S65536x256, .f32⟩
  | .hbm, ⟨20, _⟩ => ⟨S65536x256x1, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S65536x256, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S65536x256, .f32⟩
  | .hbm, ⟨61, _⟩ => ⟨S65536x256, .f32⟩
  | .hbm, ⟨62, _⟩ => ⟨S65536x256, .f32⟩
  | .hbm, ⟨63, _⟩ => ⟨S65536x256, .f32⟩
  | .hbm, ⟨64, _⟩ => ⟨S65536x256, .f32⟩
  | .hbm, ⟨65, _⟩ => ⟨S65536x256, .f32⟩
  | .hbm, ⟨66, _⟩ => ⟨S65536x256x1, .f32⟩
  | .hbm, ⟨67, _⟩ => ⟨S65536x256x1, .f32⟩
  | .hbm, ⟨68, _⟩ => ⟨S65536x256x1, .f32⟩
  | .hbm, ⟨69, _⟩ => ⟨S65536x256x1, .f32⟩
  | .hbm, ⟨70, _⟩ => ⟨S65536x256x4, .f32⟩
  | .hbm, ⟨71, _⟩ => ⟨S65536x1024, .f32⟩
  | .hbm, ⟨72, _⟩ => ⟨S1024x256, .f32⟩
  | .hbm, ⟨73, _⟩ => ⟨S65536x256, .f32⟩
  | .hbm, ⟨74, _⟩ => ⟨S1x256, .f32⟩
  | .hbm, ⟨75, _⟩ => ⟨S65536x256, .f32⟩
  | .hbm, ⟨76, _⟩ => ⟨S65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩

abbrev nD : Nat := 1
abbrev τ : Topo := Topo.v7x

variable {F : FTy → Type} [FloatOps F]

class Facts₀ : Prop where
  shapeCasts_S65536x1024_S65536x256x4 : S65536x1024.ShapeCasts S65536x256x4
  slices_S1x256x4_S1x256x1_0_0_0 : S1x256x4.Slices ![0, 0, 0] S1x256x1
  shapeCasts_S1x256x1_S1x256 : S1x256x1.ShapeCasts S1x256
  slices_S1x256x4_S1x256x1_0_0_1 : S1x256x4.Slices ![0, 0, 1] S1x256x1
  slices_S1x256x4_S1x256x1_0_0_2 : S1x256x4.Slices ![0, 0, 2] S1x256x1
  slices_S1x256x4_S1x256x1_0_0_3 : S1x256x4.Slices ![0, 0, 3] S1x256x1
  slices_S65536x256x4_S65536x256x1_0_0_0 : S65536x256x4.Slices ![0, 0, 0] S65536x256x1
  shapeCasts_S65536x256x1_S65536x256 : S65536x256x1.ShapeCasts S65536x256
  slices_S65536x256x4_S65536x256x1_0_0_1 : S65536x256x4.Slices ![0, 0, 1] S65536x256x1
  slices_S65536x256x4_S65536x256x1_0_0_2 : S65536x256x4.Slices ![0, 0, 2] S65536x256x1
  slices_S65536x256x4_S65536x256x1_0_0_3 : S65536x256x4.Slices ![0, 0, 3] S65536x256x1
  bcast_S1x256_S65536x256_0_1 : S1x256.BroadcastsInDim S65536x256 (![0, 1] : Fin 2 → Fin S65536x256.rank)
  bcast_S65536x256_S65536x256x1_0_1 : S65536x256.BroadcastsInDim S65536x256x1 (![0, 1] : Fin 2 → Fin S65536x256x1.rank)
  concatenates_S65536x256x1_S65536x256x1_S65536x256x1_S65536x256x1_S65536x256x4_d2 : Shape.Concatenates [S65536x256x1, S65536x256x1, S65536x256x1, S65536x256x1] S65536x256x4 2
  shapeCasts_S65536x256x4_S65536x1024 : S65536x256x4.ShapeCasts S65536x1024
  transposes_S256x1024_S1024x256_1_0 : S256x1024.Transposes [1, 0] S1024x256
  bcast_S256_S1x256_1 : S256.BroadcastsInDim S1x256 (![1] : Fin 1 → Fin S1x256.rank)
  dot_S65536x1024_S1024x256_S65536x256_1_0_0_1_n_n_wf : DotDims.WF S65536x1024 S1024x256 S65536x256 [1] [0] [0] [1] [] []

variable [Facts₀]

def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf

class Facts : Prop extends Facts₀ where

variable [Facts]
-- ==== Proof.BitsEntry.lean ====
/-
  The word-level kernel's @main up to its one pipelined region, and the frame claim read off a run of the region.

  @main is ninety host operations and then one pipelined matrix product. The host operations take tanh of the
  quaternion table, cut it into its four components (each a vector over the 256 groups), cut W : [256, 1024]
  into four planes [256, 256] (component c of group g of row n), form the sixteen products plane × component
  with the signs of the transposed Hamilton matrix, add them four by four, stack the four sums along a new last
  axis, re-lay the result as [256, 1024], transpose it to [1024, 256], recast it, and re-lay the bias as a row
  [1, 256]. None of them writes an argument array, so the region finds the four arguments as launched; the
  region's windows are x (blocks of 2048 rows), the folded weight and the bias row (one block each, fetched once),
  and the result (blocks of 2048 rows, written back at every point).
-/
import proofs.«180312_j87385404605279_2_alg».proof.Proof.Gen.Kernel.Launch
import proofs.«180312_j87385404605279_2_alg».proof.Proof.Gen.Kernel.Skeleton
import proofs.«180312_j87385404605279_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers as the region finds them -/

/-- Core `c`'s TensorCore buffers when the region is entered: the launch contents after the ninety host
    operations. -/
abbrev atEntry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region, entered at `atEntry`. -/
theorem hmain (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- A buffer none of the ninety operations writes is found as launched. -/
theorem atEntry_of_unwritten (c : Dev nD) (b : Ref sig .tc)
    (h : (hostOps0 : List (HloOp τ sig (Elt F))).Forall fun op => Proc.devRef .tc b ∉ op.writes) :
    atEntry m c b = m ((c : Thread nD τ).loc b) :=
  StableHlo.after_of_forall_not_mem (b := Proc.devRef .tc b) _ _ (List.forall_iff_forall_mem.mp h)

/-- The argument x is found as launched. -/
theorem atEntry_arg0 (c : Dev nD) : atEntry m c main_arg0 = m ((c : Thread nD τ).loc main_arg0) :=
  atEntry_of_unwritten m c main_arg0 (by
    simp only [hostOps0, List.Forall, StableHlo.unary_writes, StableHlo.binary_writes, StableHlo.reshape_writes,
      StableHlo.nary_writes, Finset.mem_singleton]
    repeat' apply And.intro
    all_goals exact StableHlo.devRef_ne_of_ne (by decide))
/-- The quaternion table is found as launched. -/
theorem atEntry_arg1 (c : Dev nD) : atEntry m c main_arg1 = m ((c : Thread nD τ).loc main_arg1) :=
  atEntry_of_unwritten m c main_arg1 (by
    simp only [hostOps0, List.Forall, StableHlo.unary_writes, StableHlo.binary_writes, StableHlo.reshape_writes,
      StableHlo.nary_writes, Finset.mem_singleton]
    repeat' apply And.intro
    all_goals exact StableHlo.devRef_ne_of_ne (by decide))
/-- W is found as launched. -/
theorem atEntry_arg2 (c : Dev nD) : atEntry m c main_arg2 = m ((c : Thread nD τ).loc main_arg2) :=
  atEntry_of_unwritten m c main_arg2 (by
    simp only [hostOps0, List.Forall, StableHlo.unary_writes, StableHlo.binary_writes, StableHlo.reshape_writes,
      StableHlo.nary_writes, Finset.mem_singleton]
    repeat' apply And.intro
    all_goals exact StableHlo.devRef_ne_of_ne (by decide))
/-- The bias is found as launched. -/
theorem atEntry_arg3 (c : Dev nD) : atEntry m c main_arg3 = m ((c : Thread nD τ).loc main_arg3) :=
  atEntry_of_unwritten m c main_arg3 (by
    simp only [hostOps0, List.Forall, StableHlo.unary_writes, StableHlo.binary_writes, StableHlo.reshape_writes,
      StableHlo.nary_writes, Finset.mem_singleton]
    repeat' apply And.intro
    all_goals exact StableHlo.devRef_ne_of_ne (by decide))

/-! ## The windows' blocks -/

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-- An input window's staging buffer holds the window's block at every point, whether the point fetches it or not
    (a point that does not fetch it has the block index of the point before, and the body left the buffer as it
    found it): for any proof data over the region-entry arrays whose body leaves the inputs' buffers in place.
    Window 0 is x, fetched at every point; windows 1 and 2 are the folded weight and the bias row, fetched at the
    first point only. -/
theorem found0 {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t := by
  have hkeep : ∀ t, (cfg0.win 0).cut (cfg0.grid.coords t) (dat.after 0 t) = dat.blockOf 0 t := fun t => by
    rw [hafter]; unfold Dat.blockOf blockAt; rw [hA]; try rfl
  have hfetched : dat.fetched 0 t d = blockAt m c 0 t := by
    unfold Dat.fetched Dat.blockOf blockAt; rw [hA]; try rfl
  exact (dat.before_in_eq_fetched 0 rfl (fun _ => rfl) (fun _ _ _ => rfl) hkeep t d).trans hfetched
theorem found1 {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t := by
  have hkeep : ∀ t, (cfg0.win 1).cut (cfg0.grid.coords t) (dat.after 1 t) = dat.blockOf 1 t := fun t => by
    rw [hafter]; unfold Dat.blockOf blockAt; rw [hA]; try rfl
  have hfetched : dat.fetched 1 t d = blockAt m c 1 t := by
    unfold Dat.fetched Dat.blockOf blockAt; rw [hA]; try rfl
  exact (dat.before_in_eq_fetched 1 rfl (fun _ => rfl) (fun _ _ _ => rfl) hkeep t d).trans hfetched
theorem found2 {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t := by
  have hkeep : ∀ t, (cfg0.win 2).cut (cfg0.grid.coords t) (dat.after 2 t) = dat.blockOf 2 t := fun t => by
    rw [hafter]; unfold Dat.blockOf blockAt; rw [hA]; try rfl
  have hfetched : dat.fetched 2 t d = blockAt m c 2 t := by
    unfold Dat.fetched Dat.blockOf blockAt; rw [hA]; try rfl
  exact (dat.before_in_eq_fetched 2 rfl (fun _ => rfl) (fun _ _ _ => rfl) hkeep t d).trans hfetched

/-! ## The frame claim from a run of the region -/

/-- x is the array of window 0, which the pipeline only reads; the table, W and the bias are arrays of no window.
    So a run that ends with every window's array at what the proof data computes and every other buffer as the
    region found it ends with the four arguments as launched. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats 0 c).arrAt_in 0 rfl _).trans ((hA c 0).trans (atEntry_arg0 m c))),
   ((h c).2 main_arg1 (Pipeline.mem_restRefs_of main_arg1 rfl (by decide))).trans (atEntry_arg1 m c),
   ((h c).2 main_arg2 (Pipeline.mem_restRefs_of main_arg2 rfl (by decide))).trans (atEntry_arg2 m c),
   ((h c).2 main_arg3 (Pipeline.mem_restRefs_of main_arg3 rfl (by decide))).trans (atEntry_arg3 m c)⟩

end Cert.Kernel.Entry

end
-- ==== Proof.BitsBody.lean ====
/-
  The body of the pipelined matrix product at a grid point, and the run of the whole region, for the word-level kernel.

  At a point the body loads the x block [2048, 1024], the folded weight [1024, 256] and the bias row [1, 256]
  whole, recasts x, multiplies (a matrix product into a zero accumulator), adds the bias row spread over the
  2048 rows, and stores the sum over the whole result block [2048, 256]. It changes no input buffer, keeps
  nothing between points and touches nothing else. So after the body each input buffer holds the block it held
  and the result buffer holds the one stored value, a function of the three input blocks; the pipeline writes
  that back at every point.
-/
import proofs.«180312_j87385404605279_2_alg».proof.Proof.BitsEntry

set_option maxRecDepth 16384

noncomputable section

namespace Cert.Kernel.Body

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four accesses: each the whole of its buffer -/

abbrev allX : Rect S2048x1024 := Rect.unit (s := S2048x1024) ![0, 0] S2048x1024.size inb_S2048x1024_S2048x1024_0_0
abbrev allW : Rect S1024x256 := Rect.unit (s := S1024x256) ![0, 0] S1024x256.size inb_S1024x256_S1024x256_0_0
abbrev allB : Rect S1x256 := Rect.unit (s := S1x256) ![0, 0] S1x256.size inb_S1x256_S1x256_0_0
abbrev allO : Rect S2048x256 := Rect.unit (s := S2048x256) ![0, 0] S2048x256.size inb_S2048x256_S2048x256_0_0

/-- What the result buffer holds after the body, from the three input blocks: the one store's value over the whole
    buffer. -/
def stored (x : Vec F S2048x1024 .f32) (w : Vec F S1024x256 .bf16) (b : Vec F S1x256 .f32) : Vec F S2048x256 .f32 :=
  View.canon [⟨allO, k0_pay1 (View.ld x allX) (View.ld w allW) (View.ld b allB)⟩]

/-- The one store covers the result buffer. -/
theorem stored_covers (p : Vec F S2048x256 .f32) (y : S2048x256.Idx) :
    ∃ pc ∈ ([⟨allO, p⟩] : List (View.Piece (Elt F) S2048x256 .f32)), y ∈ pc.1.set :=
  View.cover_of_tiled [⟨allO, p⟩] S2048x256.size (by rfl) y

/-! ## The body's triple -/

set_option maxHeartbeats 1000000 in
/-- On whole staging buffers, the inputs' at contents `x`, `w`, `b` and the result's at anything, the body runs to
    its end leaving the inputs' as they were and the result's at `stored x w b`. -/
theorem body_triple (c : Dev nD) (E : Set ℕ) (i : grid0.Coords)
    (arg1 : Memref sig .tc .vmem S2048x1024 .f32) (harg1 : arg1.IsWhole)
    (arg2 : Memref sig .tc .vmem S1024x256 .bf16) (harg2 : arg2.IsWhole)
    (arg3 : Memref sig .tc .vmem S1x256 .f32) (harg3 : arg3.IsWhole)
    (arg4 : Memref sig .tc .vmem S2048x256 .f32) (harg4 : arg4.IsWhole)
    (x : Vec F S2048x1024 .f32) (w : Vec F S1024x256 .bf16) (b : Vec F S1x256 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (stored x w b)) -∗ K ⟨⟩))
      ⊢ wp frame (wpE (defs₀ (F := F)) Variants.none c none) E
          (cc0__matmul_bias_kernel i arg1 harg1 arg2 harg2 arg3 harg3 arg4 harg4) K := by
  simp only [cc0__matmul_bias_kernel_eq_skeleton]; unfold cc0__matmul_bias_kernel_skel
  unfold owns
  iintro ⟨⟨%fx, %hfx, Hx⟩, ⟨%fw, %hfw, Hw⟩, ⟨%fb, %hfb, Hb⟩, ⟨%d, %fo, -, Ho⟩, Hk⟩
  subst hfx hfw hfb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (stored_covers _)

/-! ## The proof data -/

/-- On core `c`: the arrays as the region finds them; after the body at point `t` each input buffer at its block and
    the result buffer at `stored` of the three blocks; the invariant the scoped rest and the generator register,
    untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) :
    (dats m 0 c).after 3 t = stored (blockAt m c 0 t) (blockAt m c 1 t) (blockAt m c 2 t) := by dsimp only [dats]

theorem before0 (c : Dev nD) (t : Fin cfg0.N) (d) : (dats m 0 c).before 0 t d = blockAt m c 0 t :=
  found0 m (dats m 0 c) (A_eq m c 0) (after0 m c) t d
theorem before1 (c : Dev nD) (t : Fin cfg0.N) (d) : (dats m 0 c).before 1 t d = blockAt m c 1 t :=
  found1 m (dats m 0 c) (A_eq m c 1) (after1 m c) t d
theorem before2 (c : Dev nD) (t : Fin cfg0.N) (d) : (dats m 0 c).before 2 t d = blockAt m c 2 t :=
  found2 m (dats m 0 c) (A_eq m c 2) (after2 m c) t d

/-! ## The body obligation -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the triple applies; the invariant and what the
    core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) :
    BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, without a fault, with the
    result array at what the thirty-two write-backs leave in it, x's array as the region found it, and every
    buffer that is no window's array as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := hmain m Variants.none) (hA := A_eq m) (hΦ := fun _ _ => rfl)

/-- The frame: @main runs to its end and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m (dats m) (A_eq m) r h c) (run_main m ρ)

end Cert.Kernel.Body

end
-- ==== Proof.IdealEntry.lean ====
/-
  The idealized kernel's @main up to its one pipelined region, and the frame claim read off a run of the region.

  @main is ninety host operations and then one pipelined matrix product. The host operations take tanh of the
  quaternion table, cut it into its four components (each a vector over the 256 groups), cut W : [256, 1024]
  into four planes [256, 256] (component c of group g of row n), form the sixteen products plane × component
  with the signs of the transposed Hamilton matrix, add them four by four, stack the four sums along a new last
  axis, re-lay the result as [256, 1024], transpose it to [1024, 256], recast it, and re-lay the bias as a row
  [1, 256]. None of them writes an argument array, so the region finds the four arguments as launched; the
  region's windows are x (blocks of 2048 rows), the folded weight and the bias row (one block each, fetched once),
  and the result (blocks of 2048 rows, written back at every point).
-/
import proofs.«180312_j87385404605279_2_alg».proof.Proof.Gen.KernelIdeal.Launch
import proofs.«180312_j87385404605279_2_alg».proof.Proof.Gen.KernelIdeal.Skeleton
import proofs.«180312_j87385404605279_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers as the region finds them -/

/-- Core `c`'s TensorCore buffers when the region is entered: the launch contents after the ninety host
    operations. -/
abbrev atEntry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region, entered at `atEntry`. -/
theorem hmain (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- A buffer none of the ninety operations writes is found as launched. -/
theorem atEntry_of_unwritten (c : Dev nD) (b : Ref sig .tc)
    (h : (hostOps0 : List (HloOp τ sig (Elt F))).Forall fun op => Proc.devRef .tc b ∉ op.writes) :
    atEntry m c b = m ((c : Thread nD τ).loc b) :=
  StableHlo.after_of_forall_not_mem (b := Proc.devRef .tc b) _ _ (List.forall_iff_forall_mem.mp h)

/-- The argument x is found as launched. -/
theorem atEntry_arg0 (c : Dev nD) : atEntry m c main_arg0 = m ((c : Thread nD τ).loc main_arg0) :=
  atEntry_of_unwritten m c main_arg0 (by
    simp only [hostOps0, List.Forall, StableHlo.unary_writes, StableHlo.binary_writes, StableHlo.reshape_writes,
      StableHlo.nary_writes, Finset.mem_singleton]
    repeat' apply And.intro
    all_goals exact StableHlo.devRef_ne_of_ne (by decide))
/-- The quaternion table is found as launched. -/
theorem atEntry_arg1 (c : Dev nD) : atEntry m c main_arg1 = m ((c : Thread nD τ).loc main_arg1) :=
  atEntry_of_unwritten m c main_arg1 (by
    simp only [hostOps0, List.Forall, StableHlo.unary_writes, StableHlo.binary_writes, StableHlo.reshape_writes,
      StableHlo.nary_writes, Finset.mem_singleton]
    repeat' apply And.intro
    all_goals exact StableHlo.devRef_ne_of_ne (by decide))
/-- W is found as launched. -/
theorem atEntry_arg2 (c : Dev nD) : atEntry m c main_arg2 = m ((c : Thread nD τ).loc main_arg2) :=
  atEntry_of_unwritten m c main_arg2 (by
    simp only [hostOps0, List.Forall, StableHlo.unary_writes, StableHlo.binary_writes, StableHlo.reshape_writes,
      StableHlo.nary_writes, Finset.mem_singleton]
    repeat' apply And.intro
    all_goals exact StableHlo.devRef_ne_of_ne (by decide))
/-- The bias is found as launched. -/
theorem atEntry_arg3 (c : Dev nD) : atEntry m c main_arg3 = m ((c : Thread nD τ).loc main_arg3) :=
  atEntry_of_unwritten m c main_arg3 (by
    simp only [hostOps0, List.Forall, StableHlo.unary_writes, StableHlo.binary_writes, StableHlo.reshape_writes,
      StableHlo.nary_writes, Finset.mem_singleton]
    repeat' apply And.intro
    all_goals exact StableHlo.devRef_ne_of_ne (by decide))

/-! ## The windows' blocks -/

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-- An input window's staging buffer holds the window's block at every point, whether the point fetches it or not
    (a point that does not fetch it has the block index of the point before, and the body left the buffer as it
    found it): for any proof data over the region-entry arrays whose body leaves the inputs' buffers in place.
    Window 0 is x, fetched at every point; windows 1 and 2 are the folded weight and the bias row, fetched at the
    first point only. -/
theorem found0 {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t := by
  have hkeep : ∀ t, (cfg0.win 0).cut (cfg0.grid.coords t) (dat.after 0 t) = dat.blockOf 0 t := fun t => by
    rw [hafter]; unfold Dat.blockOf blockAt; rw [hA]; try rfl
  have hfetched : dat.fetched 0 t d = blockAt m c 0 t := by
    unfold Dat.fetched Dat.blockOf blockAt; rw [hA]; try rfl
  exact (dat.before_in_eq_fetched 0 rfl (fun _ => rfl) (fun _ _ _ => rfl) hkeep t d).trans hfetched
theorem found1 {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t := by
  have hkeep : ∀ t, (cfg0.win 1).cut (cfg0.grid.coords t) (dat.after 1 t) = dat.blockOf 1 t := fun t => by
    rw [hafter]; unfold Dat.blockOf blockAt; rw [hA]; try rfl
  have hfetched : dat.fetched 1 t d = blockAt m c 1 t := by
    unfold Dat.fetched Dat.blockOf blockAt; rw [hA]; try rfl
  exact (dat.before_in_eq_fetched 1 rfl (fun _ => rfl) (fun _ _ _ => rfl) hkeep t d).trans hfetched
theorem found2 {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t := by
  have hkeep : ∀ t, (cfg0.win 2).cut (cfg0.grid.coords t) (dat.after 2 t) = dat.blockOf 2 t := fun t => by
    rw [hafter]; unfold Dat.blockOf blockAt; rw [hA]; try rfl
  have hfetched : dat.fetched 2 t d = blockAt m c 2 t := by
    unfold Dat.fetched Dat.blockOf blockAt; rw [hA]; try rfl
  exact (dat.before_in_eq_fetched 2 rfl (fun _ => rfl) (fun _ _ _ => rfl) hkeep t d).trans hfetched

/-! ## The frame claim from a run of the region -/

/-- x is the array of window 0, which the pipeline only reads; the table, W and the bias are arrays of no window.
    So a run that ends with every window's array at what the proof data computes and every other buffer as the
    region found it ends with the four arguments as launched. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats 0 c).arrAt_in 0 rfl _).trans ((hA c 0).trans (atEntry_arg0 m c))),
   ((h c).2 main_arg1 (Pipeline.mem_restRefs_of main_arg1 rfl (by decide))).trans (atEntry_arg1 m c),
   ((h c).2 main_arg2 (Pipeline.mem_restRefs_of main_arg2 rfl (by decide))).trans (atEntry_arg2 m c),
   ((h c).2 main_arg3 (Pipeline.mem_restRefs_of main_arg3 rfl (by decide))).trans (atEntry_arg3 m c)⟩

end Cert.KernelIdeal.Entry

end
-- ==== Proof.IdealBody.lean ====
/-
  The body of the pipelined matrix product at a grid point, and the run of the whole region.

  At a point the body loads the x block [2048, 1024], the folded weight [1024, 256] and the bias row [1, 256]
  whole, recasts x, multiplies (a matrix product into a zero accumulator), adds the bias row spread over the
  2048 rows, and stores the sum over the whole result block [2048, 256]. It changes no input buffer, keeps
  nothing between points and touches nothing else. So after the body each input buffer holds the block it held
  and the result buffer holds the one stored value, a function of the three input blocks; the pipeline writes
  that back at every point.
-/
import proofs.«180312_j87385404605279_2_alg».proof.Proof.IdealEntry

set_option maxRecDepth 16384

noncomputable section

namespace Cert.KernelIdeal.Body

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four accesses: each the whole of its buffer -/

abbrev allX : Rect S2048x1024 := Rect.unit (s := S2048x1024) ![0, 0] S2048x1024.size inb_S2048x1024_S2048x1024_0_0
abbrev allW : Rect S1024x256 := Rect.unit (s := S1024x256) ![0, 0] S1024x256.size inb_S1024x256_S1024x256_0_0
abbrev allB : Rect S1x256 := Rect.unit (s := S1x256) ![0, 0] S1x256.size inb_S1x256_S1x256_0_0
abbrev allO : Rect S2048x256 := Rect.unit (s := S2048x256) ![0, 0] S2048x256.size inb_S2048x256_S2048x256_0_0

/-- What the result buffer holds after the body, from the three input blocks: the one store's value over the whole
    buffer. -/
def stored (x : Vec F S2048x1024 .f32) (w : Vec F S1024x256 .bf16) (b : Vec F S1x256 .f32) : Vec F S2048x256 .f32 :=
  View.canon [⟨allO, k0_pay1 (View.ld x allX) (View.ld w allW) (View.ld b allB)⟩]

/-- The one store covers the result buffer. -/
theorem stored_covers (p : Vec F S2048x256 .f32) (y : S2048x256.Idx) :
    ∃ pc ∈ ([⟨allO, p⟩] : List (View.Piece (Elt F) S2048x256 .f32)), y ∈ pc.1.set :=
  View.cover_of_tiled [⟨allO, p⟩] S2048x256.size (by rfl) y

/-! ## The body's triple -/

set_option maxHeartbeats 1000000 in
/-- On whole staging buffers, the inputs' at contents `x`, `w`, `b` and the result's at anything, the body runs to
    its end leaving the inputs' as they were and the result's at `stored x w b`. -/
theorem body_triple (c : Dev nD) (E : Set ℕ) (i : grid0.Coords)
    (arg1 : Memref sig .tc .vmem S2048x1024 .f32) (harg1 : arg1.IsWhole)
    (arg2 : Memref sig .tc .vmem S1024x256 .bf16) (harg2 : arg2.IsWhole)
    (arg3 : Memref sig .tc .vmem S1x256 .f32) (harg3 : arg3.IsWhole)
    (arg4 : Memref sig .tc .vmem S2048x256 .f32) (harg4 : arg4.IsWhole)
    (x : Vec F S2048x1024 .f32) (w : Vec F S1024x256 .bf16) (b : Vec F S1x256 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (stored x w b)) -∗ K ⟨⟩))
      ⊢ wp frame (wpE (defs₀ (F := F)) Variants.none c none) E
          (cc0__matmul_bias_kernel i arg1 harg1 arg2 harg2 arg3 harg3 arg4 harg4) K := by
  simp only [cc0__matmul_bias_kernel_eq_skeleton]; unfold cc0__matmul_bias_kernel_skel
  unfold owns
  iintro ⟨⟨%fx, %hfx, Hx⟩, ⟨%fw, %hfw, Hw⟩, ⟨%fb, %hfb, Hb⟩, ⟨%d, %fo, -, Ho⟩, Hk⟩
  subst hfx hfw hfb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  exact View.read_writes_eq_canon _ _ _ (stored_covers _)

/-! ## The proof data -/

/-- On core `c`: the arrays as the region finds them; after the body at point `t` each input buffer at its block and
    the result buffer at `stored` of the three blocks; the invariant the scoped rest and the generator register,
    untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) :
    (dats m 0 c).after 3 t = stored (blockAt m c 0 t) (blockAt m c 1 t) (blockAt m c 2 t) := by dsimp only [dats]

theorem before0 (c : Dev nD) (t : Fin cfg0.N) (d) : (dats m 0 c).before 0 t d = blockAt m c 0 t :=
  found0 m (dats m 0 c) (A_eq m c 0) (after0 m c) t d
theorem before1 (c : Dev nD) (t : Fin cfg0.N) (d) : (dats m 0 c).before 1 t d = blockAt m c 1 t :=
  found1 m (dats m 0 c) (A_eq m c 1) (after1 m c) t d
theorem before2 (c : Dev nD) (t : Fin cfg0.N) (d) : (dats m 0 c).before 2 t d = blockAt m c 2 t :=
  found2 m (dats m 0 c) (A_eq m c 2) (after2 m c) t d

/-! ## The body obligation -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the triple applies; the invariant and what the
    core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) :
    BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, without a fault, with the
    result array at what the thirty-two write-backs leave in it, x's array as the region found it, and every
    buffer that is no window's array as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := hmain m Variants.none) (hA := A_eq m) (hΦ := fun _ _ => rfl)

/-- The frame: @main runs to its end and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m (dats m) (A_eq m) r h c) (run_main m ρ)

end Cert.KernelIdeal.Body

end
-- ==== Proof.Spec.lean ====
/-
  The two programs' results as functions of the argument arrays, entry by entry, over the extended reals.

  A row of 1024 numbers is 256 groups of four; column 4g + j is component j of group g. The table gives each group
  a quaternion q(g) = tanh of its four entries. The reference turns every group of a row of x by the Hamilton
  matrix L(q(g)) — h = L(q) v, sixteen products — and then takes the inner product of the turned row with a row of
  W and adds the bias. The kernel turns every group of a row of W by the transposed matrix instead —
  w' = L(q)ᵀ w — and takes the inner product of the plain row of x with the turned row of W, plus the bias. Both are
  written here with the products and sums in the order each program forms them.
-/
import Idealize.ShloMosaic.PureOps.Ideal
import Idealize.ShloMosaic.Lib.ValueIdx

noncomputable section

open scoped BigOperators

namespace Cert.Fold

open Idealize.ShloMosaic Idealize.ShloMosaic.ValueIdx

/-- Column 4g + j: component j of group g. -/
def col (g : Fin 256) (j : Fin 4) : Fin 1024 := ⟨4 * g.val + j.val, by omega⟩
/-- The group of a column. -/
def grp (k : Fin 1024) : Fin 256 := ⟨k.val / 4, by omega⟩
/-- The component of a column. -/
def cmp (k : Fin 1024) : Fin 4 := ⟨k.val % 4, by omega⟩

theorem col_grp_cmp (k : Fin 1024) : col (grp k) (cmp k) = k := Fin.ext (by simp only [col, grp, cmp]; omega)
theorem grp_col (g : Fin 256) (j : Fin 4) : grp (col g j) = g := Fin.ext (by simp only [col, grp]; omega)
theorem cmp_col (g : Fin 256) (j : Fin 4) : cmp (col g j) = j := Fin.ext (by simp only [col, cmp]; omega)

/-- The Hamilton product L(q) v, as the reference forms it. -/
def ham (q v : Fin 4 → EReal) : Fin 4 → EReal :=
  ![q 0 * v 0 - q 1 * v 1 - q 2 * v 2 - q 3 * v 3,
    q 1 * v 0 + q 0 * v 1 - q 3 * v 2 + q 2 * v 3,
    q 2 * v 0 + q 3 * v 1 + q 0 * v 2 - q 1 * v 3,
    q 3 * v 0 - q 2 * v 1 + q 1 * v 2 + q 0 * v 3]

/-- The transposed product L(q)ᵀ w, as the kernel's host operations form it. -/
def hamT (q w : Fin 4 → EReal) : Fin 4 → EReal :=
  ![w 0 * q 0 + w 1 * q 1 + w 2 * q 2 + w 3 * q 3,
    -w 0 * q 1 + w 1 * q 0 + w 2 * q 3 - w 3 * q 2,
    -w 0 * q 2 - w 1 * q 3 + w 2 * q 0 + w 3 * q 1,
    -w 0 * q 3 + w 1 * q 2 - w 2 * q 1 + w 3 * q 0]

abbrev SX : Shape := ⟨2, ![65536, 1024]⟩
abbrev SQ : Shape := ⟨3, ![1, 256, 4]⟩
abbrev SW : Shape := ⟨2, ![256, 1024]⟩
abbrev SB : Shape := ⟨1, ![256]⟩
abbrev SO : Shape := ⟨2, ![65536, 256]⟩

/-- Group g's quaternion: tanh of the table's four entries. -/
def quat (gw : SQ.Idx → EReal) (g : Fin 256) : Fin 4 → EReal := fun j => Ideal.tanh (gw (ix3 0 g j))

/-- Group g of row r of a matrix with 1024 columns. -/
def four {R : Nat} (M : (⟨2, ![R, 1024]⟩ : Shape).Idx → EReal) (r : Fin R) (g : Fin 256) : Fin 4 → EReal :=
  fun j => M (ix2 r (col g j))

/-- The reference's turned row of x at column k. -/
def turnedX (x : SX.Idx → EReal) (gw : SQ.Idx → EReal) (r : Fin 65536) (k : Fin 1024) : EReal :=
  ham (quat gw (grp k)) (four x r (grp k)) (cmp k)

/-- The kernel's turned row of W at column k. -/
def turnedW (W : SW.Idx → EReal) (gw : SQ.Idx → EReal) (n : Fin 256) (k : Fin 1024) : EReal :=
  hamT (quat gw (grp k)) (four W n (grp k)) (cmp k)

/-- The reference's result. -/
def refOut (x : SX.Idx → EReal) (gw : SQ.Idx → EReal) (W : SW.Idx → EReal) (b : SB.Idx → EReal) : SO.Idx → EReal :=
  fun i => (∑ k : Fin 1024, turnedX x gw (i 0) k * W (ix2 (i 1) k)) + b (ix1 (i 1))

/-- The kernel's result. -/
def kerOut (x : SX.Idx → EReal) (gw : SQ.Idx → EReal) (W : SW.Idx → EReal) (b : SB.Idx → EReal) : SO.Idx → EReal :=
  fun i => (∑ k : Fin 1024, x (ix2 (i 0) k) * turnedW W gw (i 1) k) + b (ix1 (i 1))

end Cert.Fold

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.HostFold.lean ====
/-
  What the kernel's host operations hand the matrix product: the folded weight and the bias row, entry by entry.

  The table's component j is the vector q_j over the 256 groups (tanh, a cut along the last axis, the unit axes
  dropped). W's plane j is the [256, 256] array w_j[n, g] = W[n, 4g + j] (W re-laid as [256, 256, 4], a cut, the
  unit axis dropped). A component spread over the rows, [256] → [1, 256] → [256, 256], reads q_j[g] at (n, g). The four
  signed sums of products are, at (n, g), the four components of L(q(g))ᵀ applied to W's group g of row n. Each sum
  gets a trailing unit axis, the four are joined along it (entry (n, g, c) of the join is sum c at (n, g)), the join is
  re-laid as [256, 1024] (column 4g + c), transposed and recast: entry (k, n) of the folded weight is the turned row
  n of W at column k. The bias row [1, 256] is the bias re-laid.
-/
import proofs.«180312_j87385404605279_2_alg».proof.Proof.IdealEntry
import proofs.«180312_j87385404605279_2_alg».proof.Proof.Spec
import proofs.«180312_j87385404605279_2_alg».proof.Proof.LibBcastChain
import Idealize.ShloMosaic.Lib.Pipeline.Value
import Idealize.ShloMosaic.Lib.ValueIdx
import Idealize.ShloMosaic.Lib.StableHlo.Run

set_option maxRecDepth 16384

noncomputable section

namespace Cert.KernelIdeal.Prefix

open Cert.KernelIdeal Cert.KernelIdeal.Gen Cert.KernelIdeal.Entry Cert.Fold
open Idealize.ShloMosaic Idealize.ShloMosaic.ValueIdx Idealize.ShloMosaic.TcCoe Idealize.SL.Sem Idealize.ShloMosaic.StableHlo

/-! ## The layout operations read at an index -/

section Layout

variable {α : Type}

/-- Component j of the table as a vector over the groups: the cut at offset (0, 0, j) with its two unit axes dropped
    reads, at g, the table at (0, g, j). -/
theorem table_comp (y : S1x256x4.Idx → α) (off : Fin 3 → ℕ) (j : Fin 4) (h0 : off 0 = 0) (h1 : off 1 = 0) (h2 : off 2 = j.val)
    (hs : S1x256x4.Slices off S1x256x1) (hc : S1x256x1.ShapeCasts S256) (g : Fin 256) :
    shapeCast S256 (extractStridedSlice S1x256x1 off y hs) hc (ix1 g) = y (ix3 (0 : Fin 1) g j) := by
  refine (shapeCast_apply _ hc (ix1 g) (ix3 (0 : Fin 1) g (0 : Fin 1)) ?_).trans ?_
  · rw [Shape.rowMajor_val_three, Shape.rowMajor_val_one]
    show ((0 : ℕ) * 256 + g.val) * 1 + 0 = g.val
    omega
  · exact extractStridedSlice_apply off y hs (ix3 (0 : Fin 1) g (0 : Fin 1)) (ix3 (0 : Fin 1) g j) (fun a => by
      match a with
      | ⟨0, _⟩ => show (0 : ℕ) = off 0 + 0; rw [h0]
      | ⟨1, _⟩ => show g.val = off 1 + g.val; rw [h1, Nat.zero_add]
      | ⟨2, _⟩ => show j.val = off 2 + 0; rw [h2, Nat.add_zero])

/-- A [256, 256, 4] array cut at offset (0, 0, j) to extent one on the last axis reads, at (n, g, 0), the array at
    (n, g, j). -/
theorem slice_last (Y : S256x256x4.Idx → α) (off : Fin 3 → ℕ) (j : Fin 4) (h0 : off 0 = 0) (h1 : off 1 = 0) (h2 : off 2 = j.val)
    (hs : S256x256x4.Slices off S256x256x1) (n g : Fin 256) :
    extractStridedSlice S256x256x1 off Y hs (ix3 n g (0 : Fin 1)) = Y (ix3 n g j) :=
  extractStridedSlice_apply off Y hs (ix3 n g (0 : Fin 1)) (ix3 n g j) (fun a => by
    match a with
    | ⟨0, _⟩ => show n.val = off 0 + n.val; rw [h0, Nat.zero_add]
    | ⟨1, _⟩ => show g.val = off 1 + g.val; rw [h1, Nat.zero_add]
    | ⟨2, _⟩ => show j.val = off 2 + 0; rw [h2, Nat.add_zero])

/-- Plane j of W: W re-laid as [256, 256, 4], cut at offset (0, 0, j), the unit axis dropped, reads at (n, g) the
    entry of W at row n and column 4g + j. -/
theorem plane_comp (W : S256x1024.Idx → α) (off : Fin 3 → ℕ) (j : Fin 4) (h0 : off 0 = 0) (h1 : off 1 = 0) (h2 : off 2 = j.val)
    (hc1 : S256x1024.ShapeCasts S256x256x4) (hs : S256x256x4.Slices off S256x256x1) (hc2 : S256x256x1.ShapeCasts S256x256)
    (n g : Fin 256) :
    shapeCast S256x256 (extractStridedSlice S256x256x1 off (shapeCast S256x256x4 W hc1) hs) hc2 (ix2 n g)
      = W (ix2 n (col g j)) := by
  have e1 : shapeCast S256x256 (extractStridedSlice S256x256x1 off (shapeCast S256x256x4 W hc1) hs) hc2 (ix2 n g)
      = extractStridedSlice S256x256x1 off (shapeCast S256x256x4 W hc1) hs (ix3 n g (0 : Fin 1)) :=
    shapeCast_apply _ hc2 (ix2 n g) (ix3 n g (0 : Fin 1)) (by
      rw [Shape.rowMajor_val_three, Shape.rowMajor_val_two]
      show (n.val * 256 + g.val) * 1 + 0 = n.val * 256 + g.val
      omega)
  have e2 : extractStridedSlice S256x256x1 off (shapeCast S256x256x4 W hc1) hs (ix3 n g (0 : Fin 1))
      = shapeCast S256x256x4 W hc1 (ix3 n g j) :=
    slice_last (shapeCast S256x256x4 W hc1) off j h0 h1 h2 hs n g
  have e3 : shapeCast S256x256x4 W hc1 (ix3 n g j) = W (ix2 n (col g j)) :=
    shapeCast_apply W hc1 (ix3 n g j) (ix2 n (col g j)) (by
      rw [Shape.rowMajor_val_two, Shape.rowMajor_val_three]
      show n.val * 1024 + (4 * g.val + j.val) = (n.val * 256 + g.val) * 4 + j.val
      omega)
  exact e1.trans (e2.trans e3)

/-- A [256, 256] array given a trailing unit axis reads, at (n, g, u), the array at (n, g). -/
theorem lift_apply (P : S256x256.Idx → α) (h : S256x256.BroadcastsInDim S256x256x1 ![0, 1]) (n g : Fin 256) (u : Fin 1) :
    broadcastInDim S256x256x1 ![0, 1] h P (ix3 n g u) = P (ix2 n g) :=
  broadcastInDim_apply ![0, 1] h P (ix3 n g u) (ix2 n g) (fun a => by
    match a with
    | ⟨0, _⟩ => show n.val = if (256 : ℕ) = 1 then 0 else n.val; rw [if_neg (by decide)]
    | ⟨1, _⟩ => show g.val = if (256 : ℕ) = 1 then 0 else g.val; rw [if_neg (by decide)])

/-- Four [256, 256, 1] pieces joined along the last axis: entry (n, g, c) is piece c at (n, g, 0). -/
theorem stack4_apply (p : Fin 4 → (S256x256x1.Idx → α))
    (h : Shape.Concatenates ((List.ofFn fun c : Fin 4 => (⟨S256x256x1, p c⟩ : (s : Shape) × (s.Idx → α))).map (·.1)) S256x256x4 2)
    (n g : Fin 256) (c : Fin 4) :
    concatenate S256x256x4 2 (List.ofFn fun c : Fin 4 => (⟨S256x256x1, p c⟩ : (s : Shape) × (s.Idx → α))) h (ix3 n g c)
      = p c (ix3 n g (0 : Fin 1)) :=
  concatenate_ofFn_unit_apply (t := S256x256x4) (s₁ := S256x256x1) 2 p h rfl rfl (ix3 n g c) c rfl (ix3 n g (0 : Fin 1))
    (fun b hb => by
      match b with
      | ⟨0, _⟩ => rfl
      | ⟨1, _⟩ => rfl
      | ⟨2, _⟩ => exact absurd rfl hb)

end Layout

/-! ## The host operations' values, named -/

section Values

variable {F : FTy → Type} [FloatOps F]

def qv0 (gw : FVec F S1x256x4 .f32) : FVec F S256 .f32 :=
  shapeCast _ (extractStridedSlice S1x256x1 ![0, 0, 0] (Host.tanh gw) slices_S1x256x4_S1x256x1_0_0_0) shapeCasts_S1x256x1_S256
def qv1 (gw : FVec F S1x256x4 .f32) : FVec F S256 .f32 :=
  shapeCast _ (extractStridedSlice S1x256x1 ![0, 0, 1] (Host.tanh gw) slices_S1x256x4_S1x256x1_0_0_1) shapeCasts_S1x256x1_S256
def qv2 (gw : FVec F S1x256x4 .f32) : FVec F S256 .f32 :=
  shapeCast _ (extractStridedSlice S1x256x1 ![0, 0, 2] (Host.tanh gw) slices_S1x256x4_S1x256x1_0_0_2) shapeCasts_S1x256x1_S256
def qv3 (gw : FVec F S1x256x4 .f32) : FVec F S256 .f32 :=
  shapeCast _ (extractStridedSlice S1x256x1 ![0, 0, 3] (Host.tanh gw) slices_S1x256x4_S1x256x1_0_0_3) shapeCasts_S1x256x1_S256
def wv0 (W : FVec F S256x1024 .f32) : FVec F S256x256 .f32 :=
  shapeCast _ (extractStridedSlice S256x256x1 ![0, 0, 0] (shapeCast _ W shapeCasts_S256x1024_S256x256x4) slices_S256x256x4_S256x256x1_0_0_0) shapeCasts_S256x256x1_S256x256
def wv1 (W : FVec F S256x1024 .f32) : FVec F S256x256 .f32 :=
  shapeCast _ (extractStridedSlice S256x256x1 ![0, 0, 1] (shapeCast _ W shapeCasts_S256x1024_S256x256x4) slices_S256x256x4_S256x256x1_0_0_1) shapeCasts_S256x256x1_S256x256
def wv2 (W : FVec F S256x1024 .f32) : FVec F S256x256 .f32 :=
  shapeCast _ (extractStridedSlice S256x256x1 ![0, 0, 2] (shapeCast _ W shapeCasts_S256x1024_S256x256x4) slices_S256x256x4_S256x256x1_0_0_2) shapeCasts_S256x256x1_S256x256
def wv3 (W : FVec F S256x1024 .f32) : FVec F S256x256 .f32 :=
  shapeCast _ (extractStridedSlice S256x256x1 ![0, 0, 3] (shapeCast _ W shapeCasts_S256x1024_S256x256x4) slices_S256x256x4_S256x256x1_0_0_3) shapeCasts_S256x256x1_S256x256

/-- A vector over the groups spread over the 256 rows. -/
def spreadQ (q : FVec F S256 .f32) : FVec F S256x256 .f32 :=
  broadcastInDim S256x256 ![0, 1] bcast_S1x256_S256x256_0_1 (broadcastInDim S1x256 ![1] bcast_S256_S1x256_1 q)

def sum0 (gw : FVec F S1x256x4 .f32) (W : FVec F S256x1024 .f32) : FVec F S256x256 .f32 :=
  addf (addf (addf (mulf (wv0 W) (spreadQ (qv0 gw))) (mulf (wv1 W) (spreadQ (qv1 gw)))) (mulf (wv2 W) (spreadQ (qv2 gw)))) (mulf (wv3 W) (spreadQ (qv3 gw)))
def sum1 (gw : FVec F S1x256x4 .f32) (W : FVec F S256x1024 .f32) : FVec F S256x256 .f32 :=
  subf (addf (addf (mulf (Host.negf (wv0 W)) (spreadQ (qv1 gw))) (mulf (wv1 W) (spreadQ (qv0 gw)))) (mulf (wv2 W) (spreadQ (qv3 gw)))) (mulf (wv3 W) (spreadQ (qv2 gw)))
def sum2 (gw : FVec F S1x256x4 .f32) (W : FVec F S256x1024 .f32) : FVec F S256x256 .f32 :=
  addf (addf (subf (mulf (Host.negf (wv0 W)) (spreadQ (qv2 gw))) (mulf (wv1 W) (spreadQ (qv3 gw)))) (mulf (wv2 W) (spreadQ (qv0 gw)))) (mulf (wv3 W) (spreadQ (qv1 gw)))
def sum3 (gw : FVec F S1x256x4 .f32) (W : FVec F S256x1024 .f32) : FVec F S256x256 .f32 :=
  addf (subf (addf (mulf (Host.negf (wv0 W)) (spreadQ (qv3 gw))) (mulf (wv1 W) (spreadQ (qv2 gw)))) (mulf (wv2 W) (spreadQ (qv1 gw)))) (mulf (wv3 W) (spreadQ (qv0 gw)))

def liftP (P : FVec F S256x256 .f32) : FVec F S256x256x1 .f32 :=
  broadcastInDim S256x256x1 ![0, 1] bcast_S256x256_S256x256x1_0_1 P

/-- The four sums stacked, re-laid as [256, 1024] and transposed: the folded weight before its recast. -/
def foldedT (gw : FVec F S1x256x4 .f32) (W : FVec F S256x1024 .f32) : FVec F S1024x256 .f32 :=
  (transpose S1024x256 [1, 0] (shapeCast _ (concatenate S256x256x4 2 [⟨S256x256x1, liftP (sum0 gw W)⟩, ⟨S256x256x1, liftP (sum1 gw W)⟩, ⟨S256x256x1, liftP (sum2 gw W)⟩, ⟨S256x256x1, liftP (sum3 gw W)⟩] concatenates_S256x256x1_S256x256x1_S256x256x1_S256x256x1_S256x256x4_d2) shapeCasts_S256x256x4_S256x1024) transposes_S256x1024_S1024x256_1_0)

/-- The folded weight as the matrix product's second window finds it. -/
def foldedW (gw : FVec F S1x256x4 .f32) (W : FVec F S256x1024 .f32) : FVec F S1024x256 .bf16 :=
  truncf .bf16 (foldedT gw W) bitsLt_bf16_f32

/-- The bias as a row. -/
def biasAsRow (b : FVec F S256 .f32) : FVec F S1x256 .f32 := shapeCast _ b shapeCasts_S256_S1x256

variable (m : (ℓ : Loc nD τ sig) → Buf (Elt F) ℓ)

set_option maxHeartbeats 4000000 in
/-- The region finds the second window's array at the folded weight of the launched table and W. -/
theorem atEntry_weight (c : Dev nD) :
    atEntry m c main_v88 = foldedW (m ((c : Thread nD τ).loc main_arg1)) (m ((c : Thread nD τ).loc main_arg2)) := by
  dsimp only [atEntry, hostOps0]
  after_results_simp
  rfl

set_option maxHeartbeats 4000000 in
/-- The region finds the third window's array at the launched bias as a row. -/
theorem atEntry_bias (c : Dev nD) :
    atEntry m c main_v89 = biasAsRow (m ((c : Thread nD τ).loc main_arg3)) := by
  dsimp only [atEntry, hostOps0]
  after_results_simp
  rfl

end Values

/-! ## Their entries, on the extended reals -/

section Entries

theorem hostNegf_apply {s : Shape} {φ : FTy} (a : FVec Ideal s φ) (i : s.Idx) : Host.negf a i = -(a i) := rfl

variable (gw : FVec Ideal S1x256x4 .f32) (W : FVec Ideal S256x1024 .f32)

theorem qv0_apply (g : Fin 256) : qv0 (F := Ideal) gw (ix1 g) = quat gw g 0 :=
  table_comp (Host.tanh (F := Ideal) gw) ![0, 0, 0] 0 rfl rfl rfl _ _ g
theorem qv1_apply (g : Fin 256) : qv1 (F := Ideal) gw (ix1 g) = quat gw g 1 :=
  table_comp (Host.tanh (F := Ideal) gw) ![0, 0, 1] 1 rfl rfl rfl _ _ g
theorem qv2_apply (g : Fin 256) : qv2 (F := Ideal) gw (ix1 g) = quat gw g 2 :=
  table_comp (Host.tanh (F := Ideal) gw) ![0, 0, 2] 2 rfl rfl rfl _ _ g
theorem qv3_apply (g : Fin 256) : qv3 (F := Ideal) gw (ix1 g) = quat gw g 3 :=
  table_comp (Host.tanh (F := Ideal) gw) ![0, 0, 3] 3 rfl rfl rfl _ _ g

theorem wv0_apply (n g : Fin 256) : wv0 (F := Ideal) W (ix2 n g) = four W n g 0 :=
  plane_comp W ![0, 0, 0] 0 rfl rfl rfl _ _ _ n g
theorem wv1_apply (n g : Fin 256) : wv1 (F := Ideal) W (ix2 n g) = four W n g 1 :=
  plane_comp W ![0, 0, 1] 1 rfl rfl rfl _ _ _ n g
theorem wv2_apply (n g : Fin 256) : wv2 (F := Ideal) W (ix2 n g) = four W n g 2 :=
  plane_comp W ![0, 0, 2] 2 rfl rfl rfl _ _ _ n g
theorem wv3_apply (n g : Fin 256) : wv3 (F := Ideal) W (ix2 n g) = four W n g 3 :=
  plane_comp W ![0, 0, 3] 3 rfl rfl rfl _ _ _ n g

theorem spreadQ_apply (q : FVec Ideal S256 .f32) (n g : Fin 256) : spreadQ (F := Ideal) q (ix2 n g) = q (ix1 g) :=
  Cert.Lib.BcastChain.overRows_apply q bcast_S256_S1x256_1 bcast_S1x256_S256x256_0_1 n g

/-- The four signed sums at (n, g) are the four components of L(q(g))ᵀ applied to group g of row n of W. -/
theorem sum0_apply (n g : Fin 256) : sum0 (F := Ideal) gw W (ix2 n g) = hamT (quat gw g) (four W n g) 0 := by
  unfold sum0
  simp only [addf_apply, subf_apply, mulf_apply, hostNegf_apply, spreadQ_apply, qv0_apply, qv1_apply, qv2_apply, qv3_apply,
    wv0_apply, wv1_apply, wv2_apply, wv3_apply]
  rfl
theorem sum1_apply (n g : Fin 256) : sum1 (F := Ideal) gw W (ix2 n g) = hamT (quat gw g) (four W n g) 1 := by
  unfold sum1
  simp only [addf_apply, subf_apply, mulf_apply, hostNegf_apply, spreadQ_apply, qv0_apply, qv1_apply, qv2_apply, qv3_apply,
    wv0_apply, wv1_apply, wv2_apply, wv3_apply]
  rfl
theorem sum2_apply (n g : Fin 256) : sum2 (F := Ideal) gw W (ix2 n g) = hamT (quat gw g) (four W n g) 2 := by
  unfold sum2
  simp only [addf_apply, subf_apply, mulf_apply, hostNegf_apply, spreadQ_apply, qv0_apply, qv1_apply, qv2_apply, qv3_apply,
    wv0_apply, wv1_apply, wv2_apply, wv3_apply]
  rfl
theorem sum3_apply (n g : Fin 256) : sum3 (F := Ideal) gw W (ix2 n g) = hamT (quat gw g) (four W n g) 3 := by
  unfold sum3
  simp only [addf_apply, subf_apply, mulf_apply, hostNegf_apply, spreadQ_apply, qv0_apply, qv1_apply, qv2_apply, qv3_apply,
    wv0_apply, wv1_apply, wv2_apply, wv3_apply]
  rfl

/-- The four sums with their unit axes, as one family: piece c at (n, g, 0) is component c. -/
theorem pieces_apply (n g : Fin 256) (c : Fin 4) :
    (![liftP (F := Ideal) (sum0 gw W), liftP (sum1 gw W), liftP (sum2 gw W), liftP (sum3 gw W)] : Fin 4 → _) c (ix3 n g (0 : Fin 1))
      = hamT (quat gw g) (four W n g) c := by
  match c with
  | ⟨0, _⟩ => exact (lift_apply _ bcast_S256x256_S256x256x1_0_1 n g 0).trans (sum0_apply gw W n g)
  | ⟨1, _⟩ => exact (lift_apply _ bcast_S256x256_S256x256x1_0_1 n g 0).trans (sum1_apply gw W n g)
  | ⟨2, _⟩ => exact (lift_apply _ bcast_S256x256_S256x256x1_0_1 n g 0).trans (sum2_apply gw W n g)
  | ⟨3, _⟩ => exact (lift_apply _ bcast_S256x256_S256x256x1_0_1 n g 0).trans (sum3_apply gw W n g)

/-- Entry (k, n) of the folded weight is the turned row n of W at column k. -/
theorem foldedW_apply (k : Fin 1024) (n : Fin 256) : foldedW (F := Ideal) gw W (ix2 k n) = turnedW W gw n k := by
  show foldedT (F := Ideal) gw W (ix2 k n) = _
  unfold foldedT
  refine (transpose_apply [1, 0] _ transposes_S256x1024_S1024x256_1_0 (ix2 k n) (ix2 n k) (fun b => by
    match b with
    | ⟨0, _⟩ => rfl
    | ⟨1, _⟩ => rfl)).trans ?_
  refine (shapeCast_apply _ shapeCasts_S256x256x4_S256x1024 (ix2 n k) (ix3 n (grp k) (cmp k)) (by
    rw [Shape.rowMajor_val_three, Shape.rowMajor_val_two]
    show (n.val * 256 + k.val / 4) * 4 + k.val % 4 = n.val * 1024 + k.val
    omega)).trans ?_
  refine (stack4_apply ![liftP (F := Ideal) (sum0 gw W), liftP (sum1 gw W), liftP (sum2 gw W), liftP (sum3 gw W)]
    concatenates_S256x256x1_S256x256x1_S256x256x1_S256x256x1_S256x256x4_d2 n (grp k) (cmp k)).trans ?_
  exact pieces_apply gw W n (grp k) (cmp k)

/-- Entry (0, n) of the bias row is the bias at n. -/
theorem biasAsRow_apply (b : FVec Ideal S256 .f32) (u : Fin 1) (n : Fin 256) : biasAsRow (F := Ideal) b (ix2 u n) = b (ix1 n) :=
  shapeCast_apply b shapeCasts_S256_S1x256 (ix2 u n) (ix1 n) (by
    rw [Shape.rowMajor_val_one, Shape.rowMajor_val_two]
    have hu : u.val = 0 := by omega
    show n.val = u.val * 256 + n.val
    omega)

end Entries

end Cert.KernelIdeal.Prefix

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibBiasRow.lean ====
/-
  A bias row added to every row of an array (`a + b`, no rectification), on the extended reals, for any extents.

  `biasRow a b` is the array whose entry `(p, q)` is `a[p,q] + b[0,q]` for a one-row bias `b : [1, c]`;
  `biased a b` is the same with the bias a vector `b : [c]`. A block of rows of `biasRow a b` is `biasRow` of that
  block of `a` with the same bias row (`biasRow_congr`). The vector form is reached from the row form when the row
  is a recast vector (`biasRow_cast`), and it is what the host spells as a sum with the vector spread
  `[c] → [1, c] → [n, c]` (`host_biased`).
-/
import Idealize.ShloMosaic.Lib.ValueIdx
import Idealize.ShloMosaic.Lib.ValueLayout
import Idealize.ShloMosaic.PureOps.Ideal.Laws
import proofs.«180312_j87385404605279_2_alg».proof.Proof.LibBcastChain

noncomputable section

namespace Cert.Lib.BiasRow

open Idealize.ShloMosaic Idealize.ShloMosaic.ValueIdx

/-- A one-row bias added to every row: entry `(p, q)` is `a[p,q] + b[0,q]`. -/
def biasRow {n c : ℕ} (a : (⟨2, ![n, c]⟩ : Shape).Idx → EReal) (b : (⟨2, ![1, c]⟩ : Shape).Idx → EReal) :
    (⟨2, ![n, c]⟩ : Shape).Idx → EReal :=
  fun j => a j + b (ix2 (0 : Fin 1) (j 1))

/-- The same with the bias a vector: entry `(p, q)` is `a[p,q] + b[q]`. -/
def biased {n c : ℕ} (a : (⟨2, ![n, c]⟩ : Shape).Idx → EReal) (b : (⟨1, ![c]⟩ : Shape).Idx → EReal) :
    (⟨2, ![n, c]⟩ : Shape).Idx → EReal :=
  fun j => a j + b (ix1 (j 1))

theorem biasRow_apply {n c : ℕ} (a : (⟨2, ![n, c]⟩ : Shape).Idx → EReal) (b : (⟨2, ![1, c]⟩ : Shape).Idx → EReal)
    (j : (⟨2, ![n, c]⟩ : Shape).Idx) : biasRow a b j = a j + b (ix2 (0 : Fin 1) (j 1)) := rfl

/-- Two such arrays agree at two indices when the entries read there agree: the array's entry and the bias entry of
    the same column. In particular a block of rows of `biasRow a b` is `biasRow` of the block with the same bias. -/
theorem biasRow_congr {n n' c c' : ℕ} (a : (⟨2, ![n, c]⟩ : Shape).Idx → EReal) (b : (⟨2, ![1, c]⟩ : Shape).Idx → EReal)
    (a' : (⟨2, ![n', c']⟩ : Shape).Idx → EReal) (b' : (⟨2, ![1, c']⟩ : Shape).Idx → EReal)
    (j' : (⟨2, ![n', c']⟩ : Shape).Idx) (j : (⟨2, ![n, c]⟩ : Shape).Idx)
    (ha : a' j' = a j) (hb : b' (ix2 (0 : Fin 1) (j' 1)) = b (ix2 (0 : Fin 1) (j 1))) :
    biasRow a' b' j' = biasRow a b j := by
  unfold biasRow
  rw [ha, hb]

/-- With the bias row a recast vector the row form is the vector form. -/
theorem biasRow_cast {n c : ℕ} (a : (⟨2, ![n, c]⟩ : Shape).Idx → EReal) (b : (⟨1, ![c]⟩ : Shape).Idx → EReal)
    (h : (⟨1, ![c]⟩ : Shape).ShapeCasts ⟨2, ![1, c]⟩) :
    biasRow a (shapeCast ⟨2, ![1, c]⟩ b h) = biased a b := by
  funext j
  unfold biasRow biased
  rw [shapeCast_a_1a_apply b h (0 : Fin 1) (j 1)]

/-- The host's spelling: the vector spread over the rows by two `broadcast_in_dim`s, added. -/
theorem host_biased {n c : ℕ} (a : FVec Ideal ⟨2, ![n, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1]) :
    addf a (broadcastInDim ⟨2, ![n, c]⟩ ![0, 1] h4 (broadcastInDim ⟨2, ![1, c]⟩ ![1] h3 b)) = biased a b := by
  funext j
  obtain ⟨p, q, rfl⟩ : ∃ (p : Fin n) (q : Fin c), j = ix2 p q := ⟨j 0, j 1, eq_ix2 j⟩
  rw [addf_apply, Cert.Lib.BcastChain.overRows_apply b h3 h4 p q]
  rfl

end Cert.Lib.BiasRow

end
-- ==== Proof.BodyValue.lean ====
/-
  The kernel body's one stored value, on the extended reals: the block of rows of x times the turned weight, plus the
  bias row.

  The body recasts its block of x to bf16 (the identity on extended reals), reshapes the weight to its own shape (the
  identity), multiplies into a zero accumulator with the plain dimension numbers (entry (p, q) is Σ_k x[p,k] · w[k,q]),
  reshapes the bias row to its own shape (the identity), spreads the one row over the 2048 rows (entry (p, q) reads
  the row's entry (0, q)) and adds.
-/
import proofs.«180312_j87385404605279_2_alg».proof.Proof.Gen.KernelIdeal.Skeleton
import proofs.«180312_j87385404605279_2_alg».proof.Proof.LibPlainDot
import proofs.«180312_j87385404605279_2_alg».proof.Proof.LibBiasRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal

/-- The body's dimension numbers are the plain ones: the left's second axis against the right's first, no batch. -/
theorem dot_plain : dot_S2048x1024_S1024x256_S2048x256_1_0_0_1_n_n = DotDims.plain 2048 1024 256 := rfl

/-- The product: the recast and the reshape are identities, and the product into zero is the sum of products. -/
theorem prod_eq (x : FVec Ideal S2048x1024 .f32) (w : FVec Ideal S1024x256 .bf16)
    (h1 : FTy.bits .bf16 < FTy.bits .f32) (h2 : S1024x256.ShapeCasts S1024x256) :
    FloatOps.matmul dot_S2048x1024_S1024x256_S2048x256_1_0_0_1_n_n none
        (truncf .bf16 x h1 : FVec Ideal S2048x1024 .bf16) (shapeCast S1024x256 w h2)
        (constant (F := Ideal) S2048x256 .f32 0x00000000#32)
      = Cert.Lib.PlainDot.rowsByCols x w := by
  have e2 : shapeCast S1024x256 w h2 = w := shapeCast_self w h2
  rw [e2]
  exact Cert.Lib.PlainDot.matmul_zero_eq (φ₁ := .bf16) (φ₂ := .bf16) _ dot_plain none x w

/-- The spread bias: the reshape is the identity and every row reads the one row. -/
theorem bias_eq (b : FVec Ideal S1x256 .f32) (h : S1x256.ShapeCasts S1x256) (hb : S1x256.Broadcasts S2048x256)
    (p : Fin 2048) (q : Fin 256) :
    broadcastTo S2048x256 (shapeCast S1x256 b h) hb (ix2 p q) = b (ix2 (0 : Fin 1) q) :=
  (broadcastTo_1b_ab_apply (shapeCast S1x256 b h) hb p q).trans (congrFun (shapeCast_self b h) (ix2 (0 : Fin 1) q))

theorem pay_eq (x : Vec Ideal S2048x1024 .f32) (w : Vec Ideal S1024x256 .bf16) (b : Vec Ideal S1x256 .f32) :
    Cert.KernelIdeal.Gen.k0_pay1 (F := Ideal) x w b
      = Cert.Lib.BiasRow.biasRow (Cert.Lib.PlainDot.rowsByCols x w) b := by
  funext j
  obtain ⟨p, q, rfl⟩ : ∃ (p : Fin 2048) (q : Fin 256), j = ix2 p q := ⟨j 0, j 1, eq_ix2 j⟩
  unfold Gen.k0_pay1
  exact congrArg₂ (· + ·) (congrFun (prod_eq x w _ _) (ix2 p q)) (bias_eq b _ _ p q)

end Cert.KernelIdeal.BodyValue

end
-- ==== Proof.KernelValue.lean ====
/-
  The kernel's result array after the run, as one function of the argument arrays.

  At grid point t the pipeline hands the body rows 2048·t … 2048·t + 2047 of x, the whole folded weight and the
  whole bias row, and writes the body's result back as rows 2048·t … of the result array. The body's result is the
  product of the x block with the folded weight plus the bias row, and rows of a product are the product of the
  rows, so what point t writes back is block t of (x · W') + b' over the whole arrays. The thirty-two blocks tile
  the 65536 rows (row r lies in block r / 2048), so the array ends at (x · W') + b' everywhere; with the folded
  weight and the bias row read entry by entry, that is the specification's kernel side.
-/
import proofs.«180312_j87385404605279_2_alg».proof.Proof.IdealBody
import proofs.«180312_j87385404605279_2_alg».proof.Proof.HostFold
import proofs.«180312_j87385404605279_2_alg».proof.Proof.BodyValue
import Idealize.ShloMosaic.Lib.Pipeline.Value

set_option maxRecDepth 16384

noncomputable section

namespace Cert.KernelIdeal.Result

open Cert.KernelIdeal Cert.KernelIdeal.Gen Cert.KernelIdeal.Entry Cert.KernelIdeal.Body Cert.KernelIdeal.Prefix Cert.Fold
open Cert.Lib.PlainDot Cert.Lib.BiasRow
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The three input arrays as the region finds them: x, the folded weight, the bias row. -/
def xs (c : Dev nD) : S65536x1024.Idx → EReal := atEntry m c main_arg0
def ws (c : Dev nD) : S1024x256.Idx → EReal := atEntry m c main_v88
def bs (c : Dev nD) : S1x256.Idx → EReal := atEntry m c main_v89

theorem xs_eq (c : Dev nD) : xs m c = m ((c : Thread nD τ).loc main_arg0) := atEntry_arg0 m c
theorem ws_eq (c : Dev nD) :
    ws m c = foldedW (F := Ideal) (m ((c : Thread nD τ).loc main_arg1)) (m ((c : Thread nD τ).loc main_arg2)) :=
  atEntry_weight m c
theorem bs_eq (c : Dev nD) : bs m c = biasAsRow (F := Ideal) (m ((c : Thread nD τ).loc main_arg3)) := atEntry_bias m c

/-- The windows' blocks are read off those arrays. -/
theorem block0 (c : Dev nD) (t : Fin cfg0.N) : blockAt m c 0 t = ((cfg0.win 0).blk t).view.read (Elt Ideal) (xs m c) := rfl
theorem block1 (c : Dev nD) (t : Fin cfg0.N) : blockAt m c 1 t = ((cfg0.win 1).blk t).view.read (Elt Ideal) (ws m c) := rfl
theorem block2 (c : Dev nD) (t : Fin cfg0.N) : blockAt m c 2 t = ((cfg0.win 2).blk t).view.read (Elt Ideal) (bs m c) := rfl

/-- The product plus the bias row, over the whole arrays. -/
def whole (c : Dev nD) : S65536x256.Idx → EReal := biasRow (rowsByCols (xs m c) (ws m c)) (bs m c)

theorem origin : (![0, 0] : Fin 2 → Nat) = fun _ => 0 := funext fun a => by fin_cases a <;> rfl

/-- The block indices over the grid: x's and the result's row block is the point, every other block index is 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Rows of a product are the product of the rows: for ANY three arrays, the product of the x block at point t with
    the whole second array plus the whole bias row, at (p, q), is the whole product plus bias at row 2048·t + p. -/
theorem block_of_whole (X : S65536x1024.Idx → EReal) (Wt : S1024x256.Idx → EReal) (Br : S1x256.Idx → EReal)
    (t : Fin cfg0.N) (j : S2048x256.Idx) :
    biasRow (rowsByCols (M := 2048) (K := 1024) (N := 256) (((cfg0.win 0).blk t).view.read (Elt Ideal) X)
        (((cfg0.win 1).blk t).view.read (Elt Ideal) Wt)) (((cfg0.win 2).blk t).view.read (Elt Ideal) Br) j
      = biasRow (rowsByCols X Wt) Br (((cfg0.win 3).blk t).view.emb j) := by
  obtain ⟨x0, x1, w0, w1, b0, b1, o0, o1⟩ := block_indices t
  refine biasRow_congr (rowsByCols X Wt) Br _ _ j (((cfg0.win 3).blk t).view.emb j)
    (rowsByCols_congr X Wt _ _ j (((cfg0.win 3).blk t).view.emb j) (fun k => ?_) (fun k => ?_)) ?_
  · show X (((cfg0.win 0).blk t).view.emb (ix2 (j 0) k)) = X (ix2 ((((cfg0.win 3).blk t).view.emb j) 0) k)
    refine congrArg X (funext fun a => Fin.ext ?_)
    match a with
    | ⟨0, _⟩ =>
      show win0_0.index t (0 : Fin 2) * 2048 + 1 * (j 0).val = win0_3.index t (0 : Fin 2) * 2048 + 1 * (j 0).val
      rw [x0, o0]
    | ⟨1, _⟩ =>
      show win0_0.index t (1 : Fin 2) * 1024 + 1 * k.val = k.val
      rw [x1]; omega
  · show Wt (((cfg0.win 1).blk t).view.emb (ix2 k (j 1))) = Wt (ix2 k ((((cfg0.win 3).blk t).view.emb j) 1))
    refine congrArg Wt (funext fun a => Fin.ext ?_)
    match a with
    | ⟨0, _⟩ =>
      show win0_1.index t (0 : Fin 2) * 1024 + 1 * k.val = k.val
      rw [w0]; omega
    | ⟨1, _⟩ =>
      show win0_1.index t (1 : Fin 2) * 256 + 1 * (j 1).val = win0_3.index t (1 : Fin 2) * 256 + 1 * (j 1).val
      rw [w1, o1]
  · show Br (((cfg0.win 2).blk t).view.emb (ix2 (0 : Fin 1) (j 1))) = Br (ix2 (0 : Fin 1) ((((cfg0.win 3).blk t).view.emb j) 1))
    refine congrArg Br (funext fun a => Fin.ext ?_)
    match a with
    | ⟨0, _⟩ =>
      show win0_2.index t (0 : Fin 2) * 1 + 1 * 0 = 0
      rw [b0]
    | ⟨1, _⟩ =>
      show win0_2.index t (1 : Fin 2) * 256 + 1 * (j 1).val = win0_3.index t (1 : Fin 2) * 256 + 1 * (j 1).val
      rw [b1, o1]

/-- What point t writes back is block t of the whole-array function. -/
theorem written_back (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after3]
  unfold stored
  rw [View.canon_unit_zero origin]
  simp only [View.ld_unit_zero (S := S2048x1024) origin, View.ld_unit_zero (S := S1024x256) origin,
    View.ld_unit_zero (S := S1x256) origin]
  rw [Cert.KernelIdeal.BodyValue.pay_eq, block0, block1, block2]
  funext j
  exact block_of_whole (xs m c) (ws m c) (bs m c) t j

/-- An index of the result array is in point t's block iff each coordinate is in the block's range on its axis. -/
theorem mem_block (t : Fin cfg0.N) (i : S65536x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v90).slice (win0_3.rect t)).set ↔ _
  rw [View.set_slice_whole, Rect.mem_set_unit]
  exact Iff.rfl

/-- Every index of the result array lies in the block of the point row / 2048, which writes it back. -/
theorem covered (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  have hN : cfg0.N = 32 := N_0
  let t : Fin cfg0.N := ⟨(i 0).val / 2048, by rw [hN]; omega⟩
  refine ⟨t, flush0_3 t, ?_⟩
  rw [mem_block]
  obtain ⟨-, -, -, -, -, -, o0, o1⟩ := block_indices t
  have ht : t.val = (i 0).val / 2048 := rfl
  intro a
  match a with
  | ⟨0, _⟩ =>
    show win0_3.index t (0 : Fin 2) * 2048 ≤ (i 0).val ∧ (i 0).val < win0_3.index t (0 : Fin 2) * 2048 + 2048
    rw [o0, ht]; omega
  | ⟨1, _⟩ =>
    show win0_3.index t (1 : Fin 2) * 256 ≤ (i 1).val ∧ (i 1).val < win0_3.index t (1 : Fin 2) * 256 + 256
    rw [o1]; omega

/-- The result array after the thirty-two write-backs. -/
theorem final_whole (c : Dev nD) : (dats m 0 c).arrAt 3 cfg0.N = whole m c :=
  (dats m 0 c).arrAt_eq_of_cover 3 (whole m c) (fun t _ => written_back m c t) covered

/-- The whole-array function over the region-entry arrays is the specification's kernel side of the launched
    arguments: x is found as launched, the folded weight at (k, n) is the turned row n of W at column k, the bias row
    at (0, n) is the bias at n. -/
theorem whole_eq_kerOut (c : Dev nD) :
    whole m c = kerOut (m ((c : Thread nD τ).loc main_arg0)) (m ((c : Thread nD τ).loc main_arg1))
      (m ((c : Thread nD τ).loc main_arg2)) (m ((c : Thread nD τ).loc main_arg3)) := by
  funext i
  obtain ⟨r, n, rfl⟩ : ∃ (r : Fin 65536) (n : Fin 256), i = ix2 r n := ⟨i 0, i 1, eq_ix2 i⟩
  show (∑ k : Fin 1024, xs m c (ix2 r k) * ws m c (ix2 k n)) + bs m c (ix2 (0 : Fin 1) n) = _
  rw [xs_eq, ws_eq, bs_eq]
  simp only [foldedW_apply, biasAsRow_apply]
  rfl

/-- The run, read: @main ends with the result array at the specification's kernel side and the arguments as launched. -/
theorem run : θ_run defs (onTc (τ := τ) (main (F := Ideal))) ⟨m, fun _ => 0, ρ⟩ fun r => ∀ c : Dev nD,
      r.2.mem ((c.tc : Thread nD τ).loc main_v90) = kerOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(((h c).1 3).trans (final_whole m c)).trans (whole_eq_kerOut m c), args_kept m (dats m) (A_eq m) r h c⟩)
    (run_main m ρ)

end Cert.KernelIdeal.Result

end
-- ==== Proof.RefIsSpec.lean ====
/-
  The reference program's result is the specification's `refOut`, entry by entry.

  The program takes tanh of the table, views a row of x as 256 groups of four, slices the four components of the
  table and of x, forms the sixteen products and the four signed sums of the Hamilton product, stacks the four
  sums along a new last axis, re-lays the stack as rows of 1024, and multiplies by the transposed weight matrix
  before adding the bias. Each stage is read here at explicit coordinates — a row r, a group g, a component j,
  a column k — and the layers are then chained.
-/
import proofs.«180312_j87385404605279_2_alg».proof.Proof.Gen.ReferenceIdeal.Read
import proofs.«180312_j87385404605279_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Fold

/-- The argument arrays' types, as the generated stages state them. -/
abbrev VX : Type := (⟨S65536x1024, .f32⟩ : BufTy).Contents (Elt Ideal)
abbrev VQ : Type := (⟨S1x256x4, .f32⟩ : BufTy).Contents (Elt Ideal)
abbrev VW : Type := (⟨S256x1024, .f32⟩ : BufTy).Contents (Elt Ideal)
abbrev VB : Type := (⟨S256, .f32⟩ : BufTy).Contents (Elt Ideal)

/-! ## The table's four components at a group: tanh of the table's entry -/

theorem table0 (gw : VQ) (g : Fin 256) : val_main_v3 (F := Ideal) gw (ix2 0 g) = quat gw g 0 := by
  rw [val_main_v3_apply, val_main_v2_apply, val_main_v0_apply]
  have e : idx_main_v2 (idx_main_v3 (ix2 (0 : Fin 1) g)) = ix3 0 g 0 := funext fun a => Fin.ext (by
    match a with
    | ⟨0, _⟩ => rfl
    | ⟨1, _⟩ => show (0 * 256 + g.val) / 1 % 256 = g.val; omega
    | ⟨2, _⟩ => rfl)
  rw [e]; rfl

theorem table1 (gw : VQ) (g : Fin 256) : val_main_v5 (F := Ideal) gw (ix2 0 g) = quat gw g 1 := by
  rw [val_main_v5_apply, val_main_v4_apply, val_main_v0_apply]
  have e : idx_main_v4 (idx_main_v5 (ix2 (0 : Fin 1) g)) = ix3 0 g 1 := funext fun a => Fin.ext (by
    match a with
    | ⟨0, _⟩ => rfl
    | ⟨1, _⟩ => show (0 * 256 + g.val) / 1 % 256 = g.val; omega
    | ⟨2, _⟩ => rfl)
  rw [e]; rfl

theorem table2 (gw : VQ) (g : Fin 256) : val_main_v7 (F := Ideal) gw (ix2 0 g) = quat gw g 2 := by
  rw [val_main_v7_apply, val_main_v6_apply, val_main_v0_apply]
  have e : idx_main_v6 (idx_main_v7 (ix2 (0 : Fin 1) g)) = ix3 0 g 2 := funext fun a => Fin.ext (by
    match a with
    | ⟨0, _⟩ => rfl
    | ⟨1, _⟩ => show (0 * 256 + g.val) / 1 % 256 = g.val; omega
    | ⟨2, _⟩ => rfl)
  rw [e]; rfl

theorem table3 (gw : VQ) (g : Fin 256) : val_main_v9 (F := Ideal) gw (ix2 0 g) = quat gw g 3 := by
  rw [val_main_v9_apply, val_main_v8_apply, val_main_v0_apply]
  have e : idx_main_v8 (idx_main_v9 (ix2 (0 : Fin 1) g)) = ix3 0 g 3 := funext fun a => Fin.ext (by
    match a with
    | ⟨0, _⟩ => rfl
    | ⟨1, _⟩ => show (0 * 256 + g.val) / 1 % 256 = g.val; omega
    | ⟨2, _⟩ => rfl)
  rw [e]; rfl

/-! ## x's four components at a row and a group: the entry of x at column 4g + j -/

theorem comp0 (x : VX) (r : Fin 65536) (g : Fin 256) : val_main_v11 (F := Ideal) x (ix2 r g) = four x r g 0 := by
  rw [val_main_v11_apply, val_main_v10_apply, val_main_v1_apply]
  have e : idx_main_v1 (idx_main_v10 (idx_main_v11 (ix2 r g))) = ix2 r (col g 0) := funext fun a => Fin.ext (by
    match a with
    | ⟨0, _⟩ => show (((r.val * 256 + g.val) / 256 * 256 + (r.val * 256 + g.val) / 1 % 256) * 4 + 0) / 1024 = r.val; omega
    | ⟨1, _⟩ => show (((r.val * 256 + g.val) / 256 * 256 + (r.val * 256 + g.val) / 1 % 256) * 4 + 0) % 1024 = 4 * g.val + 0; omega)
  rw [e]; rfl

theorem comp1 (x : VX) (r : Fin 65536) (g : Fin 256) : val_main_v13 (F := Ideal) x (ix2 r g) = four x r g 1 := by
  rw [val_main_v13_apply, val_main_v12_apply, val_main_v1_apply]
  have e : idx_main_v1 (idx_main_v12 (idx_main_v13 (ix2 r g))) = ix2 r (col g 1) := funext fun a => Fin.ext (by
    match a with
    | ⟨0, _⟩ => show (((r.val * 256 + g.val) / 256 * 256 + (r.val * 256 + g.val) / 1 % 256) * 4 + (1 + 0)) / 1024 = r.val; omega
    | ⟨1, _⟩ => show (((r.val * 256 + g.val) / 256 * 256 + (r.val * 256 + g.val) / 1 % 256) * 4 + (1 + 0)) % 1024 = 4 * g.val + 1; omega)
  rw [e]; rfl

theorem comp2 (x : VX) (r : Fin 65536) (g : Fin 256) : val_main_v15 (F := Ideal) x (ix2 r g) = four x r g 2 := by
  rw [val_main_v15_apply, val_main_v14_apply, val_main_v1_apply]
  have e : idx_main_v1 (idx_main_v14 (idx_main_v15 (ix2 r g))) = ix2 r (col g 2) := funext fun a => Fin.ext (by
    match a with
    | ⟨0, _⟩ => show (((r.val * 256 + g.val) / 256 * 256 + (r.val * 256 + g.val) / 1 % 256) * 4 + (2 + 0)) / 1024 = r.val; omega
    | ⟨1, _⟩ => show (((r.val * 256 + g.val) / 256 * 256 + (r.val * 256 + g.val) / 1 % 256) * 4 + (2 + 0)) % 1024 = 4 * g.val + 2; omega)
  rw [e]; rfl

theorem comp3 (x : VX) (r : Fin 65536) (g : Fin 256) : val_main_v17 (F := Ideal) x (ix2 r g) = four x r g 3 := by
  rw [val_main_v17_apply, val_main_v16_apply, val_main_v1_apply]
  have e : idx_main_v1 (idx_main_v16 (idx_main_v17 (ix2 r g))) = ix2 r (col g 3) := funext fun a => Fin.ext (by
    match a with
    | ⟨0, _⟩ => show (((r.val * 256 + g.val) / 256 * 256 + (r.val * 256 + g.val) / 1 % 256) * 4 + (3 + 0)) / 1024 = r.val; omega
    | ⟨1, _⟩ => show (((r.val * 256 + g.val) / 256 * 256 + (r.val * 256 + g.val) / 1 % 256) * 4 + (3 + 0)) % 1024 = 4 * g.val + 3; omega)
  rw [e]; rfl

/-! ## The table's components spread over the rows -/

theorem spread (y : (⟨S1x256, .f32⟩ : BufTy).Contents (Elt Ideal)) (r : Fin 65536) (g : Fin 256) :
    broadcastInDim S65536x256 ![0, 1] bcast_S1x256_S65536x256_0_1 y (ix2 r g) = y (ix2 0 g) := by
  refine broadcastInDim_apply _ bcast_S1x256_S65536x256_0_1 y (ix2 r g) (ix2 0 g) (fun a => ?_)
  match a with
  | ⟨0, _⟩ => rfl
  | ⟨1, _⟩ => rfl

theorem spread18 (gw : VQ) (r : Fin 65536) (g : Fin 256) : val_main_v18 (F := Ideal) gw (ix2 r g) = quat gw g 0 :=
  (spread _ r g).trans (table0 gw g)
theorem spread20 (gw : VQ) (r : Fin 65536) (g : Fin 256) : val_main_v20 (F := Ideal) gw (ix2 r g) = quat gw g 1 :=
  (spread _ r g).trans (table1 gw g)
theorem spread23 (gw : VQ) (r : Fin 65536) (g : Fin 256) : val_main_v23 (F := Ideal) gw (ix2 r g) = quat gw g 2 :=
  (spread _ r g).trans (table2 gw g)
theorem spread26 (gw : VQ) (r : Fin 65536) (g : Fin 256) : val_main_v26 (F := Ideal) gw (ix2 r g) = quat gw g 3 :=
  (spread _ r g).trans (table3 gw g)
theorem spread29 (gw : VQ) (r : Fin 65536) (g : Fin 256) : val_main_v29 (F := Ideal) gw (ix2 r g) = quat gw g 1 :=
  (spread _ r g).trans (table1 gw g)
theorem spread31 (gw : VQ) (r : Fin 65536) (g : Fin 256) : val_main_v31 (F := Ideal) gw (ix2 r g) = quat gw g 0 :=
  (spread _ r g).trans (table0 gw g)
theorem spread34 (gw : VQ) (r : Fin 65536) (g : Fin 256) : val_main_v34 (F := Ideal) gw (ix2 r g) = quat gw g 3 :=
  (spread _ r g).trans (table3 gw g)
theorem spread37 (gw : VQ) (r : Fin 65536) (g : Fin 256) : val_main_v37 (F := Ideal) gw (ix2 r g) = quat gw g 2 :=
  (spread _ r g).trans (table2 gw g)
theorem spread40 (gw : VQ) (r : Fin 65536) (g : Fin 256) : val_main_v40 (F := Ideal) gw (ix2 r g) = quat gw g 2 :=
  (spread _ r g).trans (table2 gw g)
theorem spread42 (gw : VQ) (r : Fin 65536) (g : Fin 256) : val_main_v42 (F := Ideal) gw (ix2 r g) = quat gw g 3 :=
  (spread _ r g).trans (table3 gw g)
theorem spread45 (gw : VQ) (r : Fin 65536) (g : Fin 256) : val_main_v45 (F := Ideal) gw (ix2 r g) = quat gw g 0 :=
  (spread _ r g).trans (table0 gw g)
theorem spread48 (gw : VQ) (r : Fin 65536) (g : Fin 256) : val_main_v48 (F := Ideal) gw (ix2 r g) = quat gw g 1 :=
  (spread _ r g).trans (table1 gw g)
theorem spread51 (gw : VQ) (r : Fin 65536) (g : Fin 256) : val_main_v51 (F := Ideal) gw (ix2 r g) = quat gw g 3 :=
  (spread _ r g).trans (table3 gw g)
theorem spread53 (gw : VQ) (r : Fin 65536) (g : Fin 256) : val_main_v53 (F := Ideal) gw (ix2 r g) = quat gw g 2 :=
  (spread _ r g).trans (table2 gw g)
theorem spread56 (gw : VQ) (r : Fin 65536) (g : Fin 256) : val_main_v56 (F := Ideal) gw (ix2 r g) = quat gw g 1 :=
  (spread _ r g).trans (table1 gw g)
theorem spread59 (gw : VQ) (r : Fin 65536) (g : Fin 256) : val_main_v59 (F := Ideal) gw (ix2 r g) = quat gw g 0 :=
  (spread _ r g).trans (table0 gw g)

/-! ## The four signed sums of the Hamilton product at a row and a group -/

theorem sum0_at (x : VX) (gw : VQ) (r : Fin 65536) (g : Fin 256) :
    val_main_v28 (F := Ideal) x gw (ix2 r g) = ham (quat gw g) (four x r g) 0 := by
  rw [val_main_v28_apply, val_main_v25_apply, val_main_v22_apply, val_main_v19_apply, val_main_v21_apply, val_main_v24_apply, val_main_v27_apply,
    spread18, spread20, spread23, spread26, comp0, comp1, comp2, comp3]
  rfl

theorem sum1_at (x : VX) (gw : VQ) (r : Fin 65536) (g : Fin 256) :
    val_main_v39 (F := Ideal) x gw (ix2 r g) = ham (quat gw g) (four x r g) 1 := by
  rw [val_main_v39_apply, val_main_v36_apply, val_main_v33_apply, val_main_v30_apply, val_main_v32_apply, val_main_v35_apply, val_main_v38_apply,
    spread29, spread31, spread34, spread37, comp0, comp1, comp2, comp3]
  rfl

theorem sum2_at (x : VX) (gw : VQ) (r : Fin 65536) (g : Fin 256) :
    val_main_v50 (F := Ideal) x gw (ix2 r g) = ham (quat gw g) (four x r g) 2 := by
  rw [val_main_v50_apply, val_main_v47_apply, val_main_v44_apply, val_main_v41_apply, val_main_v43_apply, val_main_v46_apply, val_main_v49_apply,
    spread40, spread42, spread45, spread48, comp0, comp1, comp2, comp3]
  rfl

theorem sum3_at (x : VX) (gw : VQ) (r : Fin 65536) (g : Fin 256) :
    val_main_v61 (F := Ideal) x gw (ix2 r g) = ham (quat gw g) (four x r g) 3 := by
  rw [val_main_v61_apply, val_main_v58_apply, val_main_v55_apply, val_main_v52_apply, val_main_v54_apply, val_main_v57_apply, val_main_v60_apply,
    spread51, spread53, spread56, spread59, comp0, comp1, comp2, comp3]
  rfl

/-! ## The four sums as columns of extent one, and their stack along the new last axis -/

theorem stack0_at (x : VX) (gw : VQ) (r : Fin 65536) (g : Fin 256) :
    val_main_v62 (F := Ideal) x gw (ix3 r g 0) = ham (quat gw g) (four x r g) 0 := by
  rw [val_main_v62_apply]
  have e : idx_main_v62 (ix3 r g (0 : Fin 1)) = ix2 r g := funext fun a => Fin.ext (by
    match a with
    | ⟨0, _⟩ => rfl
    | ⟨1, _⟩ => rfl)
  rw [e, sum0_at]

theorem stack1_at (x : VX) (gw : VQ) (r : Fin 65536) (g : Fin 256) :
    val_main_v63 (F := Ideal) x gw (ix3 r g 0) = ham (quat gw g) (four x r g) 1 := by
  rw [val_main_v63_apply]
  have e : idx_main_v63 (ix3 r g (0 : Fin 1)) = ix2 r g := funext fun a => Fin.ext (by
    match a with
    | ⟨0, _⟩ => rfl
    | ⟨1, _⟩ => rfl)
  rw [e, sum1_at]

theorem stack2_at (x : VX) (gw : VQ) (r : Fin 65536) (g : Fin 256) :
    val_main_v64 (F := Ideal) x gw (ix3 r g 0) = ham (quat gw g) (four x r g) 2 := by
  rw [val_main_v64_apply]
  have e : idx_main_v64 (ix3 r g (0 : Fin 1)) = ix2 r g := funext fun a => Fin.ext (by
    match a with
    | ⟨0, _⟩ => rfl
    | ⟨1, _⟩ => rfl)
  rw [e, sum2_at]

theorem stack3_at (x : VX) (gw : VQ) (r : Fin 65536) (g : Fin 256) :
    val_main_v65 (F := Ideal) x gw (ix3 r g 0) = ham (quat gw g) (four x r g) 3 := by
  rw [val_main_v65_apply]
  have e : idx_main_v65 (ix3 r g (0 : Fin 1)) = ix2 r g := funext fun a => Fin.ext (by
    match a with
    | ⟨0, _⟩ => rfl
    | ⟨1, _⟩ => rfl)
  rw [e, sum3_at]

/-- The stack's four pieces: piece j is the j-th signed sum as a column. -/
def pieces (x : VX) (gw : VQ) : Fin 4 → (S65536x256x1.Idx → EReal) :=
  ![val_main_v62 (F := Ideal) x gw, val_main_v63 (F := Ideal) x gw, val_main_v64 (F := Ideal) x gw, val_main_v65 (F := Ideal) x gw]

/-- Piece j at row r, group g is component j of the Hamilton product. -/
theorem pieces_at (x : VX) (gw : VQ) (r : Fin 65536) (g : Fin 256) (j : Fin 4) :
    pieces x gw j (ix3 r g 0) = ham (quat gw g) (four x r g) j := by
  match j with
  | ⟨0, _⟩ => exact stack0_at x gw r g
  | ⟨1, _⟩ => exact stack1_at x gw r g
  | ⟨2, _⟩ => exact stack2_at x gw r g
  | ⟨3, _⟩ => exact stack3_at x gw r g

/-- The stack at (r, g, j): a concatenation of four pieces of extent one reads the piece its last coordinate names. -/
theorem stacked_at (x : VX) (gw : VQ) (r : Fin 65536) (g : Fin 256) (j : Fin 4) :
    val_main_v66 (F := Ideal) x gw (ix3 r g j) = ham (quat gw g) (four x r g) j := by
  rw [← pieces_at x gw r g j]
  unfold val_main_v66
  exact concatenate_ofFn_unit_apply (t := S65536x256x4) (s₁ := S65536x256x1) 2 (pieces x gw)
    concatenates_S65536x256x1_S65536x256x1_S65536x256x1_S65536x256x1_S65536x256x4_d2 rfl rfl (ix3 r g j) j rfl (ix3 r g 0)
    (fun b hb => match b, hb with
      | ⟨0, _⟩, _ => rfl
      | ⟨1, _⟩, _ => rfl
      | ⟨2, _⟩, hb => absurd rfl hb)

/-! ## The stack re-laid as rows of 1024: column k holds component k mod 4 of group k / 4 -/

theorem turned_at (x : VX) (gw : VQ) (r : Fin 65536) (k : Fin 1024) :
    val_main_v67 (F := Ideal) x gw (ix2 r k) = turnedX x gw r k := by
  rw [val_main_v67_apply]
  have e : idx_main_v67 (ix2 r k) = ix3 r (grp k) (cmp k) := funext fun a => Fin.ext (by
    match a with
    | ⟨0, _⟩ => show (r.val * 1024 + k.val) / 1024 = r.val; omega
    | ⟨1, _⟩ => show (r.val * 1024 + k.val) / 4 % 256 = k.val / 4; omega
    | ⟨2, _⟩ => show (r.val * 1024 + k.val) % 4 = k.val % 4; omega)
  rw [e, stacked_at]
  rfl

/-! ## The transposed weights, the contraction and the bias -/

theorem weightT_at (W : VW) (k : Fin 1024) (n : Fin 256) : val_main_v68 (F := Ideal) W (ix2 k n) = W (ix2 n k) := by
  rw [val_main_v68_apply]
  have e : idx_main_v68 (ix2 k n) = ix2 n k := funext fun a => Fin.ext (by
    match a with
    | ⟨0, _⟩ => rfl
    | ⟨1, _⟩ => rfl)
  rw [e]

theorem dot_at (x : VX) (gw : VQ) (W : VW) (r : Fin 65536) (n : Fin 256) :
    val_main_v69 (F := Ideal) x gw W (ix2 r n) = ∑ k : Fin 1024, turnedX x gw r k * W (ix2 n k) := by
  rw [val_main_v69_apply]
  refine Finset.sum_congr rfl fun k _ => ?_
  have el : lidx_main_v69 (ix2 r n) k = ix2 r k := funext fun a => Fin.ext (by
    match a with
    | ⟨0, _⟩ => rfl
    | ⟨1, _⟩ => rfl)
  have er : ridx_main_v69 (ix2 r n) k = ix2 k n := funext fun a => Fin.ext (by
    match a with
    | ⟨0, _⟩ => rfl
    | ⟨1, _⟩ => rfl)
  rw [el, er, turned_at, weightT_at]

theorem bias_at (b : VB) (r : Fin 65536) (n : Fin 256) : val_main_v71 (F := Ideal) b (ix2 r n) = b (ix1 n) := by
  rw [val_main_v71_apply, val_main_v70_apply]
  have e : idx_main_v70 (idx_main_v71 (ix2 r n)) = ix1 n := funext fun a => Fin.ext (by
    match a with
    | ⟨0, _⟩ => rfl)
  rw [e]

/-! ## The reference's result -/

theorem result_eq (x0 : (⟨S65536x1024, .f32⟩ : BufTy).Contents (Elt Ideal)) (x1 : (⟨S1x256x4, .f32⟩ : BufTy).Contents (Elt Ideal))
    (x2 : (⟨S256x1024, .f32⟩ : BufTy).Contents (Elt Ideal)) (x3 : (⟨S256, .f32⟩ : BufTy).Contents (Elt Ideal)) :
    Cert.ReferenceIdeal.Read.val_main_v72 (F := Ideal) x0 x1 x2 x3 = Cert.Fold.refOut x0 x1 x2 x3 := by
  funext i
  obtain ⟨r, n, rfl⟩ : ∃ (r : Fin 65536) (n : Fin 256), i = ix2 r n := ⟨i 0, i 1, eq_ix2 i⟩
  rw [val_main_v72_apply, dot_at, bias_at]
  rfl

end Cert.ReferenceIdeal.RefValue

end
-- ==== Proof.FoldLaw.lean ====
/-
  The two results agree when every entry of x, of the table and of W is a real number.

  For one group of four, with q the group's quaternion, v the four entries of the row of x and w the four entries
  of the row of W, the kernel's term is ⟨v, L(q)ᵀ w⟩ and the reference's is ⟨L(q) v, w⟩. Both are the same sixteen
  products q_a v_b w_c with the same signs, so over ℝ they are equal (a polynomial identity). Over the extended reals
  the products do not distribute over sums at the infinities, hence the hypothesis that the entries are real; tanh of a
  real is real, so the quaternion is real too. The sum over the 1024 columns is the sum over the 256 groups of the
  sum over the four components, because column 4g + j ↦ (g, j) is a bijection. The bias is the same term on both sides.
-/
import proofs.«180312_j87385404605279_2_alg».proof.Proof.Spec
import Mathlib.Algebra.BigOperators.Fin
import Mathlib.Data.EReal.Operations
import Mathlib.Tactic.Ring

noncomputable section

open scoped BigOperators

namespace Cert.Fold

open Idealize.ShloMosaic Idealize.ShloMosaic.ValueIdx

/-- A column is a pair (group, component). -/
def colEquiv : Fin 256 × Fin 4 ≃ Fin 1024 where
  toFun p := col p.1 p.2
  invFun k := (grp k, cmp k)
  left_inv p := Prod.ext (grp_col p.1 p.2) (cmp_col p.1 p.2)
  right_inv k := col_grp_cmp k

/-- A sum over the columns is the sum over the groups of the sum over the four components. -/
theorem sum_cols (f : Fin 1024 → EReal) : ∑ k, f k = ∑ g : Fin 256, ∑ j : Fin 4, f (col g j) := by
  rw [← Fintype.sum_prod_type' (fun g j => f (col g j))]
  exact (Fintype.sum_equiv colEquiv (fun p => f (col p.1 p.2)) f (fun _ => rfl)).symm

/-- ⟨v, L(q)ᵀ w⟩ = ⟨L(q) v, w⟩ for real q, v, w, computed in the extended reals. -/
theorem group_law (q v w : Fin 4 → ℝ) :
    ∑ j : Fin 4, (v j : EReal) * hamT (fun a => (q a : EReal)) (fun a => (w a : EReal)) j
      = ∑ j : Fin 4, ham (fun a => (q a : EReal)) (fun a => (v a : EReal)) j * (w j : EReal) := by
  rw [Fin.sum_univ_four, Fin.sum_univ_four]
  simp only [ham, hamT, Matrix.cons_val_zero, Matrix.cons_val_one, Matrix.cons_val_two, Matrix.cons_val_three,
    Matrix.head_cons, Matrix.tail_cons]
  simp only [← EReal.coe_neg, ← EReal.coe_mul, ← EReal.coe_add, ← EReal.coe_sub]
  congr 1
  ring

theorem kerOut_eq_refOut (x : SX.Idx → EReal) (gw : SQ.Idx → EReal) (W : SW.Idx → EReal) (b : SB.Idx → EReal)
    (hx : ∀ i, ∃ r : ℝ, x i = (r : EReal)) (hgw : ∀ i, ∃ r : ℝ, gw i = (r : EReal))
    (hW : ∀ i, ∃ r : ℝ, W i = (r : EReal)) :
    kerOut x gw W b = refOut x gw W b := by
  choose xr hxr using hx
  choose qr hqr using hgw
  choose wr hwr using hW
  funext i
  show (∑ k : Fin 1024, x (ix2 (i 0) k) * turnedW W gw (i 1) k) + b (ix1 (i 1))
     = (∑ k : Fin 1024, turnedX x gw (i 0) k * W (ix2 (i 1) k)) + b (ix1 (i 1))
  refine congrArg (· + b (ix1 (i 1))) ?_
  rw [sum_cols, sum_cols]
  refine Finset.sum_congr rfl fun g _ => ?_
  -- the group's quaternion and its four entries of x and of W are real
  have hq : quat gw g = fun a => ((Real.tanh (qr (ix3 0 g a)) : ℝ) : EReal) := by
    funext a
    show Ideal.tanh (gw (ix3 0 g a)) = _
    rw [hqr, Ideal.tanh_coe]
  have hv : four x (i 0) g = fun a => ((xr (ix2 (i 0) (col g a)) : ℝ) : EReal) := by
    funext a
    exact hxr _
  have hw : four W (i 1) g = fun a => ((wr (ix2 (i 1) (col g a)) : ℝ) : EReal) := by
    funext a
    exact hwr _
  simp only [turnedX, turnedW, grp_col, cmp_col, hq, hv, hw, hxr, hwr]
  exact group_law _ _ _

end Cert.Fold

end
-- ==== Proof.Finite.lean ====
/-
  From the precondition to "every entry of every argument is a real number".

  The precondition is the conjunction, over the four arguments, of "all entries satisfy |x| < +∞": for each argument,
  the array of comparisons |x| < +∞ is reduced by `and` over all its axes from the constant 1, and the four one-bit
  results are joined by `and`. If the result is 1 then each of the four reductions is 1, so every comparison is 1. In the
  extended reals |x| = max x (−x), the word 0x7F800000 reads as ⊤, and max x (−x) < ⊤ fails at x = ⊤ and at x = ⊥
  (where −x = ⊤); what is left is a real number.
-/
import proofs.«180312_j87385404605279_2_alg».proof.Pre_finite_inputs
import proofs.«180312_j87385404605279_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

/-- The rank-0 shape has one index. -/
instance : Subsingleton S_.Idx := ⟨fun a b => funext fun d => d.elim0⟩

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One argument: if "all |x| < +∞" came out 1, every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1)
    (i : s.Idx) : ∃ r : ℝ, a i = (r : EReal) :=
  real_of_abs_lt_inf (a i) (Host.reduce_andi_all _ _ hr hu ix0 e i)

theorem real_of_pre [Cert.Pre_finite_inputs.Facts]
    (a0 : FVec Ideal Cert.Pre_finite_inputs.S65536x1024 .f32) (a1 : FVec Ideal Cert.Pre_finite_inputs.S1x256x4 .f32)
    (a2 : FVec Ideal Cert.Pre_finite_inputs.S256x1024 .f32) (a3 : FVec Ideal Cert.Pre_finite_inputs.S256 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  -- the result is ((p0 ∧ p1) ∧ p2) ∧ p3, each p the reduction of one argument's comparisons
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3⟩

end Cert.Finite

end
-- ==== Proof.lean ====
/-
  The kernel computes x · (W turned by the transposed Hamilton matrices)ᵀ + b, the reference (x turned by the Hamilton
  matrices) · Wᵀ + b: the same array.

  A row of 1024 numbers is 256 quaternions; the table gives each group g a quaternion q(g) = tanh of its four
  entries. The reference replaces every group v of a row of x by L(q(g)) v and takes inner products with the rows of
  W. The kernel's host operations instead replace every group w of a row of W by L(q(g))ᵀ w, once, and the pipelined
  matrix product takes inner products of the plain rows of x with the turned rows of W, thirty-two blocks of 2048
  rows at a time. Since ⟨L v, w⟩ = ⟨v, Lᵀ w⟩ group by group — the same sixteen signed products — the two results are
  equal wherever products distribute over sums, that is for real entries: the precondition makes every entry of x,
  of the table and of W finite, and tanh of a real is real. The bias is added last on both sides.

  Proof/Spec.lean states both results entry by entry; Proof/FoldLaw.lean proves them equal for real entries and
  Proof/Finite.lean reads realness off the precondition; Proof/RefIsSpec.lean reads the reference's run as its side
  of the specification; Proof/IdealEntry.lean, IdealBody.lean (and BitsEntry.lean, BitsBody.lean for the word-level
  program) run @main and the matrix product's thirty-two grid points; Proof/HostFold.lean reads the folded weight and
  the bias row the host operations produce, Proof/BodyValue.lean the body's stored block, and Proof/KernelValue.lean
  assembles the result array from its blocks. The idealization rewrote nothing, so there is nothing to preserve.
-/
import proofs.«180312_j87385404605279_2_alg».proof.Defs
import proofs.«180312_j87385404605279_2_alg».proof.Proof.Gen.Kernel
import proofs.«180312_j87385404605279_2_alg».proof.Proof.Gen.KernelIdeal
import proofs.«180312_j87385404605279_2_alg».proof.Proof.Gen.ReferenceIdeal
import proofs.«180312_j87385404605279_2_alg».proof.Proof.Gen.Pre_finite_inputs
import proofs.«180312_j87385404605279_2_alg».proof.Proof.BitsBody
import proofs.«180312_j87385404605279_2_alg».proof.Proof.KernelValue
import proofs.«180312_j87385404605279_2_alg».proof.Proof.RefIsSpec
import proofs.«180312_j87385404605279_2_alg».proof.Proof.FoldLaw
import proofs.«180312_j87385404605279_2_alg».proof.Proof.Finite
import Idealize.ShloMosaic.Adequacy
import Idealize.ShloMosaic.Init

noncomputable section

namespace Cert.Proof

open Idealize.ShloMosaic Idealize.SL.Sem

/-- The word-level program runs to its end and leaves its four arguments as launched. -/
theorem frame_kernel : Cert.frame_Kernel := fun m ρ _ => Cert.Kernel.Body.frame m ρ

/-- So does the idealized program. -/
theorem frame_ideal : Cert.frame_KernelIdeal := fun m ρ _ => Cert.KernelIdeal.Body.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the result array at the kernel side of the specification: the kernel by its run, the
    reference because its side equals the kernel's for the real entries the precondition guarantees. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hq, hw, -⟩ := Cert.Finite.real_of_pre _ _ _ _ (hpre c)
  rw [Cert.ReferenceIdeal.Read.val_main_v72_eq, Cert.ReferenceIdeal.RefValue.result_eq,
    (hagree c).1, (hagree c).2.1, (hagree c).2.2.1, (hagree c).2.2.2]
  exact (Cert.Fold.kerOut_eq_refOut _ _ _ _ hx hq hw).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
